-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S800000 : Shape := ⟨1, ![800000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x256 .f32) (main_arg1 : FVec F S256x128 .f32) (main_arg2 : FVec F S128 .f32) (main_arg3 : FVec F S128x128 .f32) (main_arg4 : FVec F S128 .f32) (main_arg5 : FVec F S128x64 .f32) (main_arg6 : FVec F S64 .f32) (main_arg7 : IVec S800000 32) (main_arg8 : IVec S800000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S800000 : Shape := ⟨1, ![800000]⟩
abbrev S_ : Shape := ⟨0, ![]⟩
abbrev S100000 : Shape := ⟨1, ![100000]⟩
abbrev S800000x1 : Shape := ⟨2, ![800000, 1]⟩
abbrev S100000x1 : Shape := ⟨2, ![100000, 1]⟩
abbrev S4000x256 : Shape := ⟨2, ![4000, 256]⟩
abbrev S4000x1 : Shape := ⟨2, ![4000, 1]⟩
abbrev S800000x256 : Shape := ⟨2, ![800000, 256]⟩
abbrev S1x128 : Shape := ⟨2, ![1, 128]⟩
abbrev S100000x128 : Shape := ⟨2, ![100000, 128]⟩
abbrev S4000x128 : Shape := ⟨2, ![4000, 128]⟩
abbrev S800000x128 : Shape := ⟨2, ![800000, 128]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 80
  | .vmem => 34
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S100000, .f32⟩
  | .hbm, ⟨13, _⟩ => ⟨S800000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S800000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x1, .f32⟩
  | .hbm, ⟨31, _⟩ => ⟨S100000x256, .bf16⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x256, .bf16⟩
  | .hbm, ⟨41, _⟩ => ⟨S800000x256, .f32⟩
  | .hbm, ⟨42, _⟩ => ⟨S_, .f32⟩
  | .hbm, ⟨43, _⟩ => ⟨S100000x256, .f32⟩
  | .hbm, ⟨44, _⟩ => ⟨S800000x1, .i32⟩
  | .hbm, ⟨45, _⟩ => ⟨S100000x256, .f32⟩
  | .hbm, ⟨46, _⟩ => ⟨S1x128, .f32⟩
  | .hbm, ⟨47, _⟩ => ⟨S100000x128, .bf16⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x128, .bf16⟩
  | .hbm, ⟨57, _⟩ => ⟨S800000x128, .f32⟩
  | .hbm, ⟨58, _⟩ => ⟨S_, .f32⟩
  | .hbm, ⟨59, _⟩ => ⟨S100000x128, .f32⟩
  | .hbm, ⟨60, _⟩ => ⟨S800000x1, .i32⟩
  | .hbm, ⟨61, _⟩ => ⟨S100000x128, .f32⟩
  | .hbm, ⟨62, _⟩ => ⟨S1x128, .f32⟩
  | .hbm, ⟨63, _⟩ => ⟨S100000x128, .bf16⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x128, .bf16⟩
  | .hbm, ⟨73, _⟩ => ⟨S800000x128, .f32⟩
  | .hbm, ⟨74, _⟩ => ⟨S_, .f32⟩
  | .hbm, ⟨75, _⟩ => ⟨S100000x128, .f32⟩
  | .hbm, ⟨76, _⟩ => ⟨S800000x1, .i32⟩
  | .hbm, ⟨77, _⟩ => ⟨S100000x128, .f32⟩
  | .hbm, ⟨78, _⟩ => ⟨S1x64, .f32⟩
  | .hbm, ⟨79, _⟩ => ⟨S100000x64, .f32⟩
  | .local _ .vmem, ⟨0, _⟩ => ⟨S4000x256, .f32⟩
  | .local _ .vmem, ⟨1, _⟩ => ⟨S4000x256, .f32⟩
  | .local _ .vmem, ⟨2, _⟩ => ⟨S4000x1, .f32⟩
  | .local _ .vmem, ⟨3, _⟩ => ⟨S4000x1, .f32⟩
  | .local _ .vmem, ⟨4, _⟩ => ⟨S4000x256, .bf16⟩
  | .local _ .vmem, ⟨5, _⟩ => ⟨S4000x256, .bf16⟩
  | .local _ .vmem, ⟨6, _⟩ => ⟨S4000x256, .f32⟩
  | .local _ .vmem, ⟨7, _⟩ => ⟨S4000x256, .f32⟩
  | .local _ .vmem, ⟨8, _⟩ => ⟨S4000x1, .f32⟩
  | .local _ .vmem, ⟨9, _⟩ => ⟨S4000x1, .f32⟩
  | .local _ .vmem, ⟨10, _⟩ => ⟨S4000x1, .f32⟩
  | .local _ .vmem, ⟨11, _⟩ => ⟨S4000x1, .f32⟩
  | .local _ .vmem, ⟨12, _⟩ => ⟨S256x128, .f32⟩
  | .local _ .vmem, ⟨13, _⟩ => ⟨S1x128, .f32⟩
  | .local _ .vmem, ⟨14, _⟩ => ⟨S4000x128, .bf16⟩
  | .local _ .vmem, ⟨15, _⟩ => ⟨S4000x128, .bf16⟩
  | .local _ .vmem, ⟨16, _⟩ => ⟨S4000x128, .f32⟩
  | .local _ .vmem, ⟨17, _⟩ => ⟨S4000x128, .f32⟩
  | .local _ .vmem, ⟨18, _⟩ => ⟨S4000x1, .f32⟩
  | .local _ .vmem, ⟨19, _⟩ => ⟨S4000x1, .f32⟩
  | .local _ .vmem, ⟨20, _⟩ => ⟨S4000x1, .f32⟩
  | .local _ .vmem, ⟨21, _⟩ => ⟨S4000x1, .f32⟩
  | .local _ .vmem, ⟨22, _⟩ => ⟨S128x128, .f32⟩
  | .local _ .vmem, ⟨23, _⟩ => ⟨S1x128, .f32⟩
  | .local _ .vmem, ⟨24, _⟩ => ⟨S4000x128, .bf16⟩
  | .local _ .vmem, ⟨25, _⟩ => ⟨S4000x128, .bf16⟩
  | .local _ .vmem, ⟨26, _⟩ => ⟨S4000x128, .f32⟩
  | .local _ .vmem, ⟨27, _⟩ => ⟨S4000x128, .f32⟩
  | .local _ .vmem, ⟨28, _⟩ => ⟨S4000x1, .f32⟩
  | .local _ .vmem, ⟨29, _⟩ => ⟨S4000x1, .f32⟩
  | .local _ .vmem, ⟨30, _⟩ => ⟨S128x64, .f32⟩
  | .local _ .vmem, ⟨31, _⟩ => ⟨S1x64, .f32⟩
  | .local _ .vmem, ⟨32, _⟩ => ⟨S4000x64, .f32⟩
  | .local _ .vmem, ⟨33, _⟩ => ⟨S4000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_c_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_c_9 : Ref sig .tc := ⟨.hbm, 64, rfl⟩
abbrev main_v40 : Ref sig .tc := ⟨.hbm, 65, rfl⟩
abbrev main_v41 : Ref sig .tc := ⟨.hbm, 66, rfl⟩
abbrev main_c_10 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x128 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  inb_S4000x256_S4000x256_0_0 : ∀ a, (![0, 0] : Fin 2 → Nat) a + S4000x256.size a ≤ S4000x256.size a
  h_S4000x256 : 0 < S4000x256.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x256 : S4000x1.Broadcasts S4000x256
  bitsLt_bf16_f32 : FTy.bits .bf16 < FTy.bits .f32
  packedbf16_S4000x256_S4000x256_0_0 : (Rect.unit (s := S4000x256) ![0, 0] S4000x256.size inb_S4000x256_S4000x256_0_0).PackedRows (EltTy.packing .bf16)
  bcast_S_S100000x256 : S_.BroadcastsInDim S100000x256 (![] : Fin 0 → Fin S100000x256.rank)
  shapeCasts_S128_S1x128 : S128.ShapeCasts S1x128
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  dot_S4000x256_S256x128_S4000x128_1_0_0_1_n_n_wf : DotDims.WF S4000x256 S256x128 S4000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S100000x256.size a
  hwx0_2 : ∀ i : grid0.Coords, EltTy.bits .bf16 = 32 ∨ (Rect.block (s := S100000x256) S4000x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .bf16 = 32 ∨ (Rect.block (s := S100000x128) S4000x128.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x128.size a ≤ S100000x128.size a
  hwx2_5 : ∀ i : grid2.Coords, EltTy.bits .bf16 = 32 ∨ (Rect.block (s := S100000x128) S4000x128.size (cc2_transform_5 i) (hinb2_5 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x1.size a ≤ S100000x1.size a
  hwx3_1 : ∀ i : grid3.Coords, EltTy.bits .f32 = 32 ∨ (Rect.block (s := S100000x1) S4000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S100000x64.size a
  hwx3_4 : ∀ i : grid3.Coords, EltTy.bits .f32 = 32 ∨ (Rect.block (s := S100000x64) S4000x64.size (cc3_transform_4 i) (hinb3_4 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v39) S4000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S4000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S800000 : Shape := ⟨1, ![800000]⟩
abbrev S_ : Shape := ⟨0, ![]⟩
abbrev S100000 : Shape := ⟨1, ![100000]⟩
abbrev S800000x1 : Shape := ⟨2, ![800000, 1]⟩
abbrev S800000x256 : Shape := ⟨2, ![800000, 256]⟩
abbrev S100000x1 : Shape := ⟨2, ![100000, 1]⟩
abbrev S100000x128 : Shape := ⟨2, ![100000, 128]⟩
abbrev S1x128 : Shape := ⟨2, ![1, 128]⟩
abbrev S800000x128 : Shape := ⟨2, ![800000, 128]⟩
abbrev S100000x64 : Shape := ⟨2, ![100000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S100000x256, .f32⟩
  | 1 => ⟨S256x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S800000, .i32⟩
  | 8 => ⟨S800000, .i32⟩
  | 9 => ⟨S_, .f32⟩
  | 10 => ⟨S800000, .f32⟩
  | 11 => ⟨S_, .f32⟩
  | 12 => ⟨S100000, .f32⟩
  | 13 => ⟨S800000x1, .i32⟩
  | 14 => ⟨S100000, .f32⟩
  | 15 => ⟨S_, .f32⟩
  | 16 => ⟨S_, .f32⟩
  | 17 => ⟨S100000, .f32⟩
  | 18 => ⟨S100000, .f32⟩
  | 19 => ⟨S_, .f32⟩
  | 20 => ⟨S100000, .f32⟩
  | 21 => ⟨S800000x1, .i32⟩
  | 22 => ⟨S100000, .f32⟩
  | 23 => ⟨S_, .f32⟩
  | 24 => ⟨S_, .f32⟩
  | 25 => ⟨S100000, .f32⟩
  | 26 => ⟨S100000, .f32⟩
  | 27 => ⟨S100000, .f32⟩
  | 28 => ⟨S100000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x256, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000x1, .f32⟩
  | 48 => ⟨S800000x256, .f32⟩
  | 49 => ⟨S800000x256, .f32⟩
  | 50 => ⟨S_, .f32⟩
  | 51 => ⟨S100000x256, .f32⟩
  | 52 => ⟨S800000x1, .i32⟩
  | 53 => ⟨S100000x256, .f32⟩
  | 54 => ⟨S100000x1, .f32⟩
  | 55 => ⟨S100000x256, .f32⟩
  | 56 => ⟨S100000x256, .f32⟩
  | 57 => ⟨S100000x128, .f32⟩
  | 58 => ⟨S1x128, .f32⟩
  | 59 => ⟨S100000x128, .f32⟩
  | 60 => ⟨S100000x128, .f32⟩
  | 61 => ⟨S_, .f32⟩
  | 62 => ⟨S100000x128, .f32⟩
  | 63 => ⟨S100000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S800000x1, .f32⟩
  | 83 => ⟨S800000x128, .f32⟩
  | 84 => ⟨S800000x128, .f32⟩
  | 85 => ⟨S_, .f32⟩
  | 86 => ⟨S100000x128, .f32⟩
  | 87 => ⟨S800000x1, .i32⟩
  | 88 => ⟨S100000x128, .f32⟩
  | 89 => ⟨S100000x1, .f32⟩
  | 90 => ⟨S100000x128, .f32⟩
  | 91 => ⟨S100000x128, .f32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x128, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000, .f32⟩
  | 117 => ⟨S800000x1, .f32⟩
  | 118 => ⟨S800000x128, .f32⟩
  | 119 => ⟨S800000x128, .f32⟩
  | 120 => ⟨S_, .f32⟩
  | 121 => ⟨S100000x128, .f32⟩
  | 122 => ⟨S800000x1, .i32⟩
  | 123 => ⟨S100000x128, .f32⟩
  | 124 => ⟨S100000x1, .f32⟩
  | 125 => ⟨S100000x128, .f32⟩
  | 126 => ⟨S100000x128, .f32⟩
  | 127 => ⟨S100000x64, .f32⟩
  | _ => ⟨S100000x256, .f32⟩

abbrev hbmTy0_1 (i : Nat) : BufTy := match i % 128 with
  | 0 => ⟨S1x64, .f32⟩
  | 1 => ⟨S100000x64, .f32⟩
  | 2 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c : Ref sig .tc := ⟨.hbm, 29, rfl⟩
abbrev main_v11 : Ref sig .tc := ⟨.hbm, 30, rfl⟩
abbrev main_v12 : Ref sig .tc := ⟨.hbm, 31, rfl⟩
abbrev main_c_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_c_6 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_7 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call2_cst : Ref sig .tc := ⟨.hbm, 61, rfl⟩
abbrev main_call2_v0 : Ref sig .tc := ⟨.hbm, 62, rfl⟩
abbrev main_v38 : Ref sig .tc := ⟨.hbm, 63, rfl⟩
abbrev main_c_8 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_10 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_12 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_call3_cst : Ref sig .tc := ⟨.hbm, 96, rfl⟩
abbrev main_call3_v0 : Ref sig .tc := ⟨.hbm, 97, rfl⟩
abbrev main_v66 : Ref sig .tc := ⟨.hbm, 98, rfl⟩
abbrev main_c_13 : Ref sig .tc := ⟨.hbm, 99, rfl⟩
abbrev main_v67 : Ref sig .tc := ⟨.hbm, 100, rfl⟩
abbrev main_v68 : Ref sig .tc := ⟨.hbm, 101, rfl⟩
abbrev main_c_14 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_c_15 : Ref sig .tc := ⟨.hbm, 108, rfl⟩
abbrev main_v74 : Ref sig .tc := ⟨.hbm, 109, rfl⟩
abbrev main_v75 : Ref sig .tc := ⟨.hbm, 110, rfl⟩
abbrev main_c_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_cst_17 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S800000x1_S800000x128_0_1 : S800000x1.BroadcastsInDim S800000x128 (![0, 1] : Fin 2 → Fin S800000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S800000x1_S800000_n_0_0_1_wf : ScatterDims.WF S100000 S800000x1 S800000 [] [0] [0] 1
  gather_S100000x256_S800000x1_S800000x256_1_0_n_n_0_1_1256_wf : GatherDims.WF S100000x256 S800000x1 S800000x256 [1] [0] [] [0] [] 1 ![1, 256]
  gather_S100000_S800000x1_S800000_n_0_n_n_0_1_1_wf : GatherDims.WF S100000 S800000x1 S800000 [] [0] [] [0] [] 1 ![1]
  scatter_S100000x256_S800000x1_S800000x256_1_0_0_1_wf : ScatterDims.WF S100000x256 S800000x1 S800000x256 [1] [0] [0] 1
  dot_S100000x256_S256x128_S100000x128_1_0_0_1_n_n_wf : DotDims.WF S100000x256 S256x128 S100000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The kernel program's run with its result named.

  The program is twelve segments: five stretches of host operations, then four times a pipelined kernel call
  followed (but for the last) by a stretch of host operations.  The library's launch theorem for such a chain
  carries one invariant from segment to segment: every buffer that lives for the whole program holds the
  contents the fold of the segments gives it.  After the last segment that fold is W12, so a final state of any
  weakly fair execution has, in the result buffer main_v52, what W12 has there, and in each argument buffer
  what it was launched with.
-/
import proofs.«152339_j21388937134410_2_alg».proof.Proof.Gen.KernelIdeal.Frame

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which
-- needs plain definitions unfolded in a metavariable's type
set_option backward.isDefEq.respectTransparency.types false in
/-- Every weakly fair execution of the kernel program from the memory m terminates without a fault; at the end
    the result buffer holds the last boundary's contents W12 at main_v52, and every argument is as launched.
    The chain of segments is run by the launch theorem; its last thread state (every program-long buffer at
    W12) is read against the final state, the result directly and each argument through the fold. -/
theorem run : θ_run defs (onTc (τ := τ) (main (F := F))) ⟨m, fun _ => 0, ρ⟩ (fun r => ∀ c : Dev nD,
      r.2.mem ((c.tc : Thread nD τ).loc main_v52) = W12 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v52 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KRun

end
-- ==== Proof.Spec.lean ====
/-
  The layer functions of the graph convolution, as whole-array functions over the extended reals.

  A graph-convolution layer takes the node features h : [n, k], gathers them along the edges, sums them into
  the edges' destinations, scales row p of the sum by s(p) (the inverse square root of the in-degree), multiplies
  by the weights w : [k, d] and adds the bias b.  Three functions say everything the kernels compute:

  * rowScale x s  : entry (p, q) is x(p, q) · s(p)             (s a column [n, 1])
  * linear A s w b: entry (p, q) is Σ_κ (A(p, κ) · s(p)) · w(κ, q) + b(q)   (b a row [1, d])
  * relu h        : entry i is max(h(i), 0)

  Each is stated for every index of the matrix, and read at the entry (p, q) by the lemma beside it.
-/
import Idealize.ShloMosaic.PureOps.Ideal
import Idealize.ShloMosaic.Lib.ValueIdx

noncomputable section

namespace Cert.Spec

open Idealize.ShloMosaic Idealize.ShloMosaic.ValueIdx

/-- The row of an index of a matrix [a, b], as a number below a. -/
abbrev row {a b : ℕ} (i : (⟨2, ![a, b]⟩ : Shape).Idx) : Fin a := ⟨(i 0).val, idx2_lt0 i⟩
/-- The column of an index of a matrix [a, b], as a number below b. -/
abbrev col {a b : ℕ} (i : (⟨2, ![a, b]⟩ : Shape).Idx) : Fin b := ⟨(i 1).val, idx2_lt1 i⟩

theorem row_ix2 {a b : ℕ} (p : Fin a) (q : Fin b) : row (ix2 p q) = p := rfl
theorem col_ix2 {a b : ℕ} (p : Fin a) (q : Fin b) : col (ix2 p q) = q := rfl

/-- Every row of x multiplied by that row's entry of the column s. -/
def rowScale {a b : ℕ} (x : (⟨2, ![a, b]⟩ : Shape).Idx → EReal) (s : (⟨2, ![a, 1]⟩ : Shape).Idx → EReal) :
    (⟨2, ![a, b]⟩ : Shape).Idx → EReal :=
  fun i => x i * s (ix2 (row i) (0 : Fin 1))

theorem rowScale_apply {a b : ℕ} (x : (⟨2, ![a, b]⟩ : Shape).Idx → EReal) (s : (⟨2, ![a, 1]⟩ : Shape).Idx → EReal)
    (p : Fin a) (q : Fin b) : rowScale x s (ix2 p q) = x (ix2 p q) * s (ix2 p (0 : Fin 1)) := rfl

/-- The rows of A scaled by the column s, times the weights w, plus the bias row b. -/
def linear {a k d : ℕ} (A : (⟨2, ![a, k]⟩ : Shape).Idx → EReal) (s : (⟨2, ![a, 1]⟩ : Shape).Idx → EReal)
    (w : (⟨2, ![k, d]⟩ : Shape).Idx → EReal) (b : (⟨2, ![1, d]⟩ : Shape).Idx → EReal) :
    (⟨2, ![a, d]⟩ : Shape).Idx → EReal :=
  fun i => (∑ κ : Fin k, (A (ix2 (row i) κ) * s (ix2 (row i) (0 : Fin 1))) * w (ix2 κ (col i)))
    + b (ix2 (0 : Fin 1) (col i))

theorem linear_apply {a k d : ℕ} (A : (⟨2, ![a, k]⟩ : Shape).Idx → EReal) (s : (⟨2, ![a, 1]⟩ : Shape).Idx → EReal)
    (w : (⟨2, ![k, d]⟩ : Shape).Idx → EReal) (b : (⟨2, ![1, d]⟩ : Shape).Idx → EReal) (p : Fin a) (q : Fin d) :
    linear A s w b (ix2 p q)
      = (∑ κ : Fin k, (A (ix2 p κ) * s (ix2 p (0 : Fin 1))) * w (ix2 κ q)) + b (ix2 (0 : Fin 1) q) := rfl

/-- The positive part, entry by entry: the larger of the entry and the number the zero word denotes. -/
def relu {a d : ℕ} (h : (⟨2, ![a, d]⟩ : Shape).Idx → EReal) : (⟨2, ![a, d]⟩ : Shape).Idx → EReal :=
  fun i => max (h i) (Ideal.ofBits .f32 0x00000000#32)

theorem relu_apply {a d : ℕ} (h : (⟨2, ![a, d]⟩ : Shape).Idx → EReal) (i : (⟨2, ![a, d]⟩ : Shape).Idx) :
    relu h i = max (h i) (Ideal.ofBits .f32 0x00000000#32) := rfl

end Cert.Spec

end
-- ==== Proof.LibColumn.lean ====
/-
  Three readings of array operations at one entry, general in the extents: a vector made a column, a column
  repeated along the rows, and the sum of a matrix's rows on the extended reals.

  A reduction over the last axis of a matrix that keeps its dimensions (a row's maximum subtracted from the row,
  a row divided by its sum) is spelt with these: the vector of row values [a] is cast to a column [a, 1], and
  the column is broadcast to [a, b]. The result has the row's value at every entry of the row. The row sum
  itself, an additive reduction along the second axis from the zero word, is at row n the finite sum of the
  entries (n, m).
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

/-! ## Two layout readings: a vector as a column, a column repeated along the rows -/

section Layout
variable {α : Type}

/-- A vector [a] cast to a column [a, 1] reads, at (i, u), the vector at i: in row-major order the position of
    (i, u) in [a, 1] is i · 1 + u, and u = 0 because the second axis has one coordinate, so it is the position i
    of the vector's entry. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). A broadcast keeps a coordinate on
    an axis the operand shares and puts 0 on an axis where the operand has extent one. The second axis has
    extent one, so its coordinate is 0; on the first axis the coordinate p is kept, and if a = 1 then p = 0
    anyway. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two composed: a vector v [a] made a column and the column repeated along each row gives the matrix
    whose entry (n, m) is v(n), whatever m. This is how the kernel subtracts a row's maximum from the row and
    divides a row by its sum. -/
theorem column_apply {a b : ℕ} (v : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (n : Fin a) (m : Fin b) :
    broadcastTo ⟨2, ![a, b]⟩ (shapeCast ⟨2, ![a, 1]⟩ v h₁) h₂ (ix2 n m) = v (ix1 n) :=
  (broadcastTo_a1_ab_apply _ h₂ n m).trans (shapeCast_a_a1_apply v h₁ n 0)

end Layout

/-! ## The sum of a row -/

/-- An additive reduction of a matrix [a, b] along its second axis, from the zero word, is at n the sum over
    m < b of the entries (n, m). The library reads the reduction as the sum over the reduced axis of the source
    at the result index with the reduced coordinate put back in; for a matrix reduced along its columns that
    index is (n, m), coordinate by coordinate. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (n : Fin a) :
    multiReduction (F := Ideal) .add [1] ⟨1, ![a]⟩ src 0x00000000#32 h hφ hacc (ix1 n) = ∑ m : Fin b, src (ix2 n m) :=
  (Ideal.multiReduction_add_single src 0x00000000#32 h hφ hacc (ix1 n)).trans
    (Finset.sum_congr rfl fun m _ => congrArg src (funext fun c => Fin.ext (by
      match c with
      | ⟨0, _⟩ => rfl
      | ⟨1, _⟩ => rfl)))

end Cert.LibColumn

end
-- ==== Proof.Region0.lean ====
import proofs.«152339_j21388937134410_2_alg».proof.Proof.Gen.KernelIdeal.Frame
import proofs.«152339_j21388937134410_2_alg».proof.Proof.Spec
import proofs.«152339_j21388937134410_2_alg».proof.Proof.LibColumn
import Idealize.ShloMosaic.Lib.Pipeline.Value
import Idealize.ShloMosaic.Lib.ValueIdx

/-
  The row scaling, from its blocks to the whole array.

  The first kernel multiplies every row of the node features x : [100000, 256] by that row's entry of the column
  s : [100000, 1]. It does so in 25 steps; step t works on the rows 4000·t … 4000·t + 3999 of x and of s and
  writes the same rows of the result. Three things are shown here, each for every content of the machine's
  arrays when the kernel starts:

  * what one step computes, entry by entry: at row p and column q of its block, x-block(p, q) · s-block(p, 0);
  * what one step writes back is the block of rows 4000·t … of ONE function of the whole arrays x and s, the
    function Spec.rowScale: the block's row p is the array's row 4000·t + p, for the inputs and the result alike;
  * the 25 blocks cover all 100000 rows (row r is in block r / 4000), so after the last step the result array
    is Spec.rowScale x s everywhere.
-/

set_option maxRecDepth 16384

noncomputable section

namespace Cert.KCover

namespace RowScale

open Idealize.ShloMosaic Idealize.ShloMosaic.TcCoe Idealize.ShloMosaic.ValueIdx Idealize.SL.Sem
open Cert.KernelIdeal Cert.KernelIdeal.Gen

/-! ## One step, entry by entry -/

/-- The step's result block as operations on its two input blocks: s made a column of the same shape (a cast that
    changes nothing), repeated along the 256 columns, multiplied into x entry by entry, and narrowed to the 16-bit
    format. -/
theorem rowScaleStep_eq (x : Vec Ideal S4000x256 .f32) (s : Vec Ideal S4000x1 .f32) :
    k0_pay1 x s
      = truncf .bf16 (mulf x (broadcastTo S4000x256 (shapeCast S4000x1 s shapeCasts_S4000x1_S4000x1)
          broadcasts_S4000x1_S4000x256)) bitsLt_bf16_f32 := rfl

/-- At row p and column q the step's result is x(p, q) · s(p, 0): on the extended reals narrowing the format keeps
    the number, the product is entry by entry, and the repeated column reads s at (p, 0) whatever q. -/
theorem rowScaleStep_apply (x : Vec Ideal S4000x256 .f32) (s : Vec Ideal S4000x1 .f32) (p : Fin 4000) (q : Fin 256) :
    k0_pay1 x s (ix2 p q) = x (ix2 p q) * s (ix2 p (0 : Fin 1)) := by
  rw [rowScaleStep_eq, truncf_apply, mulf_apply, Cert.LibColumn.broadcastTo_a1_ab_apply, shapeCast_self]

/-! ## Where a block lies in its array -/

/-- The zero offset of a rank-2 rectangle, in the spelling of the kernel's loads and stores. -/
theorem origin2 : (![0, 0] : Fin 2 → Nat) = fun _ => 0 := funext fun a => by fin_cases a <;> rfl

/-- The kernel runs 25 steps. -/
theorem steps0 : cfg0.N = 25 := N_0

/-- At step t each of the three windows is at block t along the rows and at block 0 along the columns: decided
    once over the 25 steps. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row p of step t's block is row 4000·t + p of the array: 25 blocks of 4000 rows are the 100000 rows. -/
abbrev blockRow0 (t : Fin cfg0.N) (p : Fin 4000) : Fin 100000 :=
  ⟨4000 * t.val + p.val, by have h : t.val < 25 := lt_of_lt_of_eq t.isLt steps0; omega⟩

/-- The block of x at step t, at (p, q), is x at (4000·t + p, q): a block's coordinate in its array is the block's
    index times the block's size plus the coordinate inside the block. -/
theorem xBlock0_apply (V : (c : Dev nD) → (b : Ref sig .tc) → Buf (Elt Ideal) ((c : Thread nD τ).loc b))
    (c : Dev nD) (t : Fin cfg0.N) (p : Fin 4000) (q : Fin 256) :
    (iblk0 V c 0 t : Vec Ideal S4000x256 .f32) (ix2 p q) = (V c main_arg0 : S100000x256.Idx → EReal) (ix2 (blockRow0 t p) q) := by
  obtain ⟨e0, e1, -, -, -, -⟩ := blockIndex0 t
  unfold iblk0
  rw [View.read_apply]
  show V c main_arg0 (((cfg0.win 0).blk t).view.emb (ix2 p q)) = _
  refine congrArg (V c main_arg0) ?_
  funext a
  apply Fin.ext
  match a with
  | ⟨0, _⟩ => show win0_0.index t (0 : Fin 2) * 4000 + 1 * p.val = 4000 * t.val + p.val; rw [e0]; omega
  | ⟨1, _⟩ => show win0_0.index t (1 : Fin 2) * 256 + 1 * q.val = q.val; rw [e1]; omega

/-- The block of s at step t, at (p, 0), is s at (4000·t + p, 0). -/
theorem sBlock0_apply (V : (c : Dev nD) → (b : Ref sig .tc) → Buf (Elt Ideal) ((c : Thread nD τ).loc b))
    (c : Dev nD) (t : Fin cfg0.N) (p : Fin 4000) (u : Fin 1) :
    (iblk0 V c 1 t : Vec Ideal S4000x1 .f32) (ix2 p u) = (V c main_v11 : S100000x1.Idx → EReal) (ix2 (blockRow0 t p) u) := by
  obtain ⟨-, -, e0, e1, -, -⟩ := blockIndex0 t
  unfold iblk0
  rw [View.read_apply]
  show V c main_v11 (((cfg0.win 1).blk t).view.emb (ix2 p u)) = _
  refine congrArg (V c main_v11) ?_
  funext a
  apply Fin.ext
  match a with
  | ⟨0, _⟩ => show win0_1.index t (0 : Fin 2) * 4000 + 1 * p.val = 4000 * t.val + p.val; rw [e0]; omega
  | ⟨1, _⟩ => show win0_1.index t (1 : Fin 2) * 1 + 1 * u.val = u.val; rw [e1]; omega

/-- The place in the result array of entry (p, q) of step t's block: (4000·t + p, q). -/
theorem outPlace0 (t : Fin cfg0.N) (p : Fin 4000) (q : Fin 256) :
    (((cfg0.win 2).blk t).view.emb (ix2 p q) : S100000x256.Idx) = ix2 (blockRow0 t p) q := by
  obtain ⟨-, -, -, -, e0, e1⟩ := blockIndex0 t
  funext a
  apply Fin.ext
  match a with
  | ⟨0, _⟩ => show win0_2.index t (0 : Fin 2) * 4000 + 1 * p.val = 4000 * t.val + p.val; rw [e0]; omega
  | ⟨1, _⟩ => show win0_2.index t (1 : Fin 2) * 256 + 1 * q.val = q.val; rw [e1]; omega

section Array

variable (V : (c : Dev nD) → (b : Ref sig .tc) → Buf (Elt Ideal) ((c : Thread nD τ).loc b))

/-! ## What a step writes back -/

/-- What step t writes back is the block of rows 4000·t … 4000·t + 3999 of rowScale x s: the staging buffer holds
    the one whole-block store's payload; at (p, q) that is x-block(p, q) · s-block(p, 0), the two blocks read rows
    4000·t + p of x and s, and rowScale x s at (4000·t + p, q) is x(4000·t + p, q) · s(4000·t + p, 0). -/
theorem flushed0_eq (c : Dev nD) (t : Fin cfg0.N) :
    (dat0 (F := Ideal) V c).flushed 2 t
      = ((cfg0.win 2).blk t).view.read (Elt Ideal) (Cert.Spec.rowScale (V c main_arg0) (V c main_v11)) := by
  show (cfg0.win 2).cut (grid0.coords t) ((dat0 (F := Ideal) V c).after 2 t) = _
  rw [after0_2]
  unfold out0_2
  rw [View.canon_unit_zero origin2]
  simp only [View.ld_unit_zero (S := S4000x256) origin2, View.ld_unit_zero (S := S4000x1) origin2]
  funext j
  obtain ⟨p, q, rfl⟩ : ∃ (p : Fin 4000) (q : Fin 256), j = ix2 p q := ⟨j 0, j 1, eq_ix2 j⟩
  show k0_pay1 (iblk0 V c 0 t) (iblk0 V c 1 t) (ix2 p q)
    = Cert.Spec.rowScale (V c main_arg0) (V c main_v11) (((cfg0.win 2).blk t).view.emb (ix2 p q))
  rw [rowScaleStep_apply, xBlock0_apply, sBlock0_apply, outPlace0, Cert.Spec.rowScale_apply]

/-! ## The blocks cover the array -/

/-- An index of the result array is in step t's block iff, on each axis, its coordinate is within the block's
    range there. -/
theorem mem_outBlock0 (t : Fin cfg0.N) (i : S100000x256.Idx) :
    i ∈ ((cfg0.win 2).blk t).view.set
      ↔ ∀ a : Fin 2, win0_2.index t a * S4000x256.size a ≤ (i a).val
          ∧ (i a).val < win0_2.index t a * S4000x256.size a + S4000x256.size a := by
  show i ∈ ((View.whole main_v13).slice (win0_2.rect t)).set ↔ _
  rw [View.set_slice_whole, Rect.mem_set_unit]
  exact Iff.rfl

/-- Every index (r, q) of the result array is in the block of step r / 4000, which is written back:
    4000 · (r / 4000) ≤ r < 4000 · (r / 4000) + 4000, and r < 100000 gives r / 4000 < 25. -/
theorem cover0 (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hlt : (i 0).val / 4000 < cfg0.N := by rw [steps0]; omega
  obtain ⟨-, -, -, -, e0, e1⟩ := blockIndex0 ⟨(i 0).val / 4000, hlt⟩
  refine ⟨⟨(i 0).val / 4000, hlt⟩, flush0_2 _, ?_⟩
  rw [mem_outBlock0]
  intro a
  match a with
  | ⟨0, _⟩ =>
    show win0_2.index ⟨(i 0).val / 4000, hlt⟩ (0 : Fin 2) * 4000 ≤ (i 0).val
      ∧ (i 0).val < win0_2.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win0_2.index ⟨(i 0).val / 4000, hlt⟩ (1 : Fin 2) * 256 ≤ (i 1).val
      ∧ (i 1).val < win0_2.index ⟨(i 0).val / 4000, hlt⟩ (1 : Fin 2) * 256 + 256
    rw [e1]
    omega

end Array

end RowScale

/-! ## The array after the last step -/

open Idealize.ShloMosaic Idealize.ShloMosaic.TcCoe Idealize.SL.Sem Cert.KernelIdeal Cert.KernelIdeal.Gen in
/-- After the 25 steps the result array holds rowScale of the arrays x and s the kernel found: every step writes
    its block of that one function, and the blocks cover the array. -/
theorem final0 (V : (c : Dev nD) → (b : Ref sig .tc) → Buf (Elt Ideal) ((c : Thread nD τ).loc b)) (c : Dev nD) :
    (dat0 (F := Ideal) V c).arrAt 2 cfg0.N = Cert.Spec.rowScale (V c main_arg0) (V c main_v11) :=
  (dat0 (F := Ideal) V c).arrAt_eq_of_cover 2 (Cert.Spec.rowScale (V c main_arg0) (V c main_v11))
    (fun t _ => RowScale.flushed0_eq V c t) RowScale.cover0

end Cert.KCover

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.LinearBlock.lean ====
/-
  One fused layer of the graph convolution, read at one entry of the block it stores.

  The layer takes a block A of aggregated features [M, K], two columns s and s' [M, 1], the weights w [K, D] and
  the bias row b [1, D]. It scales row p of A by s(p), multiplies the scaled block by the weights, adds the bias
  to every row, takes the positive part, and scales row p of the result by s'(p). Between these steps it changes
  formats (to the 16-bit format before the product and before the store); on the extended reals a change of
  format is the identity, so it leaves no trace in the value.

  Read at the entry (p, q) this is

      max (Σ_κ (A(p, κ) · s(p)) · w(κ, q) + b(0, q)) 0 · s'(p)

  where 0 is the number the zero word denotes. Each operation is read at the entry in turn: the pointwise ones
  entry by entry, a column repeated along the rows at (p, 0), the one row repeated down the columns at (0, q),
  a cast to the same shape as the identity, and the product into the zero accumulator as the finite sum over the
  contracted coordinate. All extents are variables.
-/
import Idealize.ShloMosaic.PureOps.Ideal.Laws
import Idealize.ShloMosaic.Lib.ValueIdx
import Idealize.ShloMosaic.Lib.ValueLayout
import Idealize.ShloMosaic.Lib.Pipeline.Value
import proofs.«152339_j21388937134410_2_alg».proof.Proof.LibPlainDot
import proofs.«152339_j21388937134410_2_alg».proof.Proof.LibColumn

noncomputable section

open scoped BigOperators

namespace Cert.LinearBlock

open Idealize.ShloMosaic Idealize.ShloMosaic.ValueIdx

variable {M K D : ℕ}

/-- The scaled block: row p of A times s(p), entry by entry. The cast of A and of s to their own shapes is the
    identity, the column s repeated along the rows reads s(p, 0) at (p, κ), and the change of format reads
    through. -/
theorem scaled_apply (A : FVec Ideal ⟨2, ![M, K]⟩ .f32) (s : FVec Ideal ⟨2, ![M, 1]⟩ .f32)
    (hA : (⟨2, ![M, K]⟩ : Shape).ShapeCasts ⟨2, ![M, K]⟩) (hs : (⟨2, ![M, 1]⟩ : Shape).ShapeCasts ⟨2, ![M, 1]⟩)
    (hsb : (⟨2, ![M, 1]⟩ : Shape).Broadcasts ⟨2, ![M, K]⟩) (hφ : FTy.bits .bf16 < FTy.bits .f32)
    (p : Fin M) (κ : Fin K) :
    (truncf .bf16 (mulf (shapeCast ⟨2, ![M, K]⟩ A hA) (broadcastTo ⟨2, ![M, K]⟩ (shapeCast ⟨2, ![M, 1]⟩ s hs) hsb)) hφ
        : FVec Ideal ⟨2, ![M, K]⟩ .bf16) (ix2 p κ)
      = A (ix2 p κ) * s (ix2 p (0 : Fin 1)) := by
  rw [truncf_apply, mulf_apply, Cert.LibColumn.broadcastTo_a1_ab_apply, shapeCast_self, shapeCast_self]

/-- The whole layer at the entry (p, q). -/
theorem layer_apply (A : FVec Ideal ⟨2, ![M, K]⟩ .f32) (s s' : FVec Ideal ⟨2, ![M, 1]⟩ .f32)
    (w : FVec Ideal ⟨2, ![K, D]⟩ .f32) (b : FVec Ideal ⟨2, ![1, D]⟩ .f32)
    (hA : (⟨2, ![M, K]⟩ : Shape).ShapeCasts ⟨2, ![M, K]⟩) (hs : (⟨2, ![M, 1]⟩ : Shape).ShapeCasts ⟨2, ![M, 1]⟩)
    (hsb : (⟨2, ![M, 1]⟩ : Shape).Broadcasts ⟨2, ![M, K]⟩) (hφ : FTy.bits .bf16 < FTy.bits .f32)
    (hb : (⟨2, ![1, D]⟩ : Shape).ShapeCasts ⟨2, ![1, D]⟩) (hbb : (⟨2, ![1, D]⟩ : Shape).Broadcasts ⟨2, ![M, D]⟩)
    (hs'b : (⟨2, ![M, 1]⟩ : Shape).Broadcasts ⟨2, ![M, D]⟩) (p : Fin M) (q : Fin D) :
    (truncf .bf16
        (mulf
          (maximumf
            (addf
              (FloatOps.matmul (DotDims.plain M K D) none
                (truncf .bf16 (mulf (shapeCast ⟨2, ![M, K]⟩ A hA) (broadcastTo ⟨2, ![M, K]⟩ (shapeCast ⟨2, ![M, 1]⟩ s hs) hsb)) hφ
                  : FVec Ideal ⟨2, ![M, K]⟩ .bf16)
                (truncf .bf16 w hφ : FVec Ideal ⟨2, ![K, D]⟩ .bf16)
                (constant (F := Ideal) ⟨2, ![M, D]⟩ .f32 0x00000000#32))
              (broadcastTo ⟨2, ![M, D]⟩ (shapeCast ⟨2, ![1, D]⟩ b hb) hbb))
            (broadcast ⟨2, ![M, D]⟩ (FloatOps.ofBits (F := Ideal) .f32 0x00000000#32)))
          (broadcastTo ⟨2, ![M, D]⟩ (shapeCast ⟨2, ![M, 1]⟩ s' hs) hs'b))
        hφ : FVec Ideal ⟨2, ![M, D]⟩ .bf16) (ix2 p q)
      = max ((∑ κ : Fin K, (A (ix2 p κ) * s (ix2 p (0 : Fin 1))) * w (ix2 κ q)) + b (ix2 (0 : Fin 1) q))
          (Ideal.ofBits .f32 0x00000000#32) * s' (ix2 p (0 : Fin 1)) := by
  rw [truncf_apply, mulf_apply, maximumf_apply, addf_apply, broadcast_apply,
    Cert.LibColumn.broadcastTo_a1_ab_apply, broadcastTo_1b_ab_apply, shapeCast_self b, shapeCast_self s',
    Cert.LibPlainDot.matmul_zero_apply]
  refine congrArg (fun σ : EReal => max (σ + b (ix2 (0 : Fin 1) q)) (Ideal.ofBits .f32 0x00000000#32) * s' (ix2 p (0 : Fin 1))) ?_
  refine Finset.sum_congr rfl fun κ _ => ?_
  rw [scaled_apply, truncf_apply]

end Cert.LinearBlock

end
-- ==== Proof.Region1.lean ====
import proofs.«152339_j21388937134410_2_alg».proof.Proof.Gen.KernelIdeal.Frame
import proofs.«152339_j21388937134410_2_alg».proof.Proof.Spec
import proofs.«152339_j21388937134410_2_alg».proof.Proof.LinearBlock
import Idealize.ShloMosaic.Lib.Pipeline.Value

/-
  The first fused layer, from its blocks to its array.

  The layer runs over 25 points. At point t it reads rows 4000·t … 4000·t + 3999 of the aggregated features
  A [100000, 256] and of the two columns s and s' [100000, 1], reads the weights w [256, 128] and the bias row
  b [1, 128] whole, and writes rows 4000·t … 4000·t + 3999 of the output [100000, 128]. What it writes at row p
  of its block, column q, is

      max (Σ_κ (A(r, κ) · s(r)) · w(κ, q) + b(0, q)) 0 · s'(r)        with r = 4000·t + p,

  which is the entry (r, q) of  rowScale (relu (linear A s w b)) s'. So every point writes back its block of that
  one array; the 25 blocks of 4000 rows tile the 100000 rows (row r lies in block r / 4000); hence the output
  array ends holding that array, whatever the arrays held when the layer was entered.
-/

set_option maxRecDepth 16384

noncomputable section

namespace Cert.KCover

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Layer1

/-- The origin of a whole-block rectangle, written as the constant zero. -/
theorem origin : (![0, 0] : Fin 2 → Nat) = fun _ => 0 := funext fun a => by fin_cases a <;> rfl

/-- The block indices of the six windows at point t, decided over the 25 points: the three row-blocked inputs and
    the output are at block (t, 0); the weights and the bias row are at block (0, 0). -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The dimension numbers of the layer's product list the axes of the plain product [4000, 256] · [256, 128]. -/
theorem dims_plain : dot_S4000x256_S256x128_S4000x128_1_0_0_1_n_n = DotDims.plain 4000 256 128 := rfl

/-! ## What the body computes, at an entry of its block -/

/-- The stored block at (p, q), from the five blocks the body loads. -/
theorem stored_apply (x0 : Vec Ideal S4000x256 .f32) (x1 x2 : Vec Ideal S4000x1 .f32) (x3 : Vec Ideal S256x128 .f32)
    (x4 : Vec Ideal S1x128 .f32) (p : Fin 4000) (q : Fin 128) :
    k1_pay1 x0 x1 x3 x4 x2 (ix2 p q)
      = max ((∑ κ : Fin 256, (x0 (ix2 p κ) * x1 (ix2 p (0 : Fin 1))) * x3 (ix2 κ q)) + x4 (ix2 (0 : Fin 1) q))
          (Ideal.ofBits .f32 0x00000000#32) * x2 (ix2 p (0 : Fin 1)) := by
  unfold k1_pay1
  rw [dims_plain]
  exact Cert.LinearBlock.layer_apply x0 x1 x2 x3 x4 _ _ _ _ _ _ _ p q

/-! ## Each loaded block, as rows of its array -/

/-- The features' block at point t: row p of the block is row 4000·t + p of the array. -/
theorem features_rows (c : Dev nD) (t : Fin cfg1.N) (p : Fin 4000) (κ : Fin 256) (r : Fin 100000)
    (hr : r.val = t.val * 4000 + p.val) :
    (iblk1 V c 0 t : Vec Ideal S4000x256 .f32) (ix2 p κ) = (V c main_v24 : S100000x256.Idx → EReal) (ix2 r κ) := by
  unfold iblk1
  rw [View.read_apply]
  show (V c main_v24 : S100000x256.Idx → EReal) _ = V c main_v24 _
  refine congrArg (V c main_v24 : S100000x256.Idx → EReal) ?_
  obtain ⟨e0, e1, -⟩ := block_index t
  funext a; apply Fin.ext
  match a with
  | ⟨0, _⟩ => show win1_0.index t (0 : Fin 2) * 4000 + 1 * p.val = r.val; rw [e0, hr]; omega
  | ⟨1, _⟩ => show win1_0.index t (1 : Fin 2) * 256 + 1 * κ.val = κ.val; rw [e1]; omega

/-- The destination-side column's block at point t, likewise. -/
theorem dst_rows (c : Dev nD) (t : Fin cfg1.N) (p : Fin 4000) (u : Fin 1) (r : Fin 100000)
    (hr : r.val = t.val * 4000 + p.val) :
    (iblk1 V c 1 t : Vec Ideal S4000x1 .f32) (ix2 p u) = (V c main_v12 : S100000x1.Idx → EReal) (ix2 r u) := by
  unfold iblk1
  rw [View.read_apply]
  show (V c main_v12 : S100000x1.Idx → EReal) _ = V c main_v12 _
  refine congrArg (V c main_v12 : S100000x1.Idx → EReal) ?_
  obtain ⟨-, -, e0, e1, -⟩ := block_index t
  funext a; apply Fin.ext
  match a with
  | ⟨0, _⟩ => show win1_1.index t (0 : Fin 2) * 4000 + 1 * p.val = r.val; rw [e0, hr]; omega
  | ⟨1, _⟩ => show win1_1.index t (1 : Fin 2) * 1 + 1 * u.val = u.val; rw [e1]; omega

/-- The source-side column's block at point t, likewise. -/
theorem src_rows (c : Dev nD) (t : Fin cfg1.N) (p : Fin 4000) (u : Fin 1) (r : Fin 100000)
    (hr : r.val = t.val * 4000 + p.val) :
    (iblk1 V c 2 t : Vec Ideal S4000x1 .f32) (ix2 p u) = (V c main_v11 : S100000x1.Idx → EReal) (ix2 r u) := by
  unfold iblk1
  rw [View.read_apply]
  show (V c main_v11 : S100000x1.Idx → EReal) _ = V c main_v11 _
  refine congrArg (V c main_v11 : S100000x1.Idx → EReal) ?_
  obtain ⟨-, -, -, -, e0, e1, -⟩ := block_index t
  funext a; apply Fin.ext
  match a with
  | ⟨0, _⟩ => show win1_2.index t (0 : Fin 2) * 4000 + 1 * p.val = r.val; rw [e0, hr]; omega
  | ⟨1, _⟩ => show win1_2.index t (1 : Fin 2) * 1 + 1 * u.val = u.val; rw [e1]; omega

/-- The weights' block at every point is the whole array. -/
theorem weights_whole (c : Dev nD) (t : Fin cfg1.N) (κ : Fin 256) (q : Fin 128) :
    (iblk1 V c 3 t : Vec Ideal S256x128 .f32) (ix2 κ q) = (V c main_arg1 : S256x128.Idx → EReal) (ix2 κ q) := by
  unfold iblk1
  rw [View.read_apply]
  show (V c main_arg1 : S256x128.Idx → EReal) _ = V c main_arg1 _
  refine congrArg (V c main_arg1 : S256x128.Idx → EReal) ?_
  obtain ⟨-, -, -, -, -, -, e0, e1, -⟩ := block_index t
  funext a; apply Fin.ext
  match a with
  | ⟨0, _⟩ => show win1_3.index t (0 : Fin 2) * 256 + 1 * κ.val = κ.val; rw [e0]; omega
  | ⟨1, _⟩ => show win1_3.index t (1 : Fin 2) * 128 + 1 * q.val = q.val; rw [e1]; omega

/-- The bias row's block at every point is the whole row. -/
theorem bias_whole (c : Dev nD) (t : Fin cfg1.N) (u : Fin 1) (q : Fin 128) :
    (iblk1 V c 4 t : Vec Ideal S1x128 .f32) (ix2 u q) = (V c main_v25 : S1x128.Idx → EReal) (ix2 u q) := by
  unfold iblk1
  rw [View.read_apply]
  show (V c main_v25 : S1x128.Idx → EReal) _ = V c main_v25 _
  refine congrArg (V c main_v25 : S1x128.Idx → EReal) ?_
  obtain ⟨-, -, -, -, -, -, -, -, e0, e1, -⟩ := block_index t
  funext a; apply Fin.ext
  match a with
  | ⟨0, _⟩ => show win1_4.index t (0 : Fin 2) * 1 + 1 * u.val = u.val; rw [e0]; omega
  | ⟨1, _⟩ => show win1_4.index t (1 : Fin 2) * 128 + 1 * q.val = q.val; rw [e1]; omega

/-! ## The layer as one array -/

/-- The layer's result as one function of the five arrays the region finds. -/
abbrev result (c : Dev nD) : S100000x128.Idx → EReal :=
  Cert.Spec.rowScale (Cert.Spec.relu (Cert.Spec.linear (V c main_v24) (V c main_v12) (V c main_arg1) (V c main_v25)))
    (V c main_v11)

/-- What point t stores at (p, q) of its block is the entry (4000·t + p, q) of the layer's result: the stored
    value read through the rows of the five arrays is the result's defining expression at that entry. -/
theorem stored_eq_result (c : Dev nD) (t : Fin cfg1.N) (p : Fin 4000) (q : Fin 128) (r : Fin 100000)
    (hr : r.val = t.val * 4000 + p.val) :
    k1_pay1 (iblk1 V c 0 t) (iblk1 V c 1 t) (iblk1 V c 3 t) (iblk1 V c 4 t) (iblk1 V c 2 t) (ix2 p q)
      = result V c (ix2 r q) := by
  unfold result
  rw [stored_apply, Cert.Spec.rowScale_apply, Cert.Spec.relu_apply, Cert.Spec.linear_apply,
    dst_rows V c t p 0 r hr, src_rows V c t p 0 r hr, bias_whole V c t 0 q]
  refine congrArg (fun σ : EReal => max (σ + (V c main_v25 : S1x128.Idx → EReal) (ix2 (0 : Fin 1) q))
    (Ideal.ofBits .f32 0x00000000#32) * (V c main_v11 : S100000x1.Idx → EReal) (ix2 r (0 : Fin 1))) ?_
  refine Finset.sum_congr rfl fun κ _ => ?_
  rw [features_rows V c t p κ r hr, weights_whole V c t κ q]

/-! ## What a point writes back, and the array after the 25 points -/

/-- The grid has 25 points. -/
theorem points : cfg1.N = 25 := rfl

/-- The output's block at point t: the entry (p, q) of the block is the entry (4000·t + p, q) of the array. -/
theorem out_rows (t : Fin cfg1.N) (p : Fin 4000) (q : Fin 128) (r : Fin 100000) (hr : r.val = t.val * 4000 + p.val) :
    ((cfg1.win 5).blk t).view.emb (ix2 p q) = (ix2 r q : S100000x128.Idx) := by
  obtain ⟨-, -, -, -, -, -, -, -, -, -, e0, e1⟩ := block_index t
  funext a; apply Fin.ext
  match a with
  | ⟨0, _⟩ => show win1_5.index t (0 : Fin 2) * 4000 + 1 * p.val = r.val; rw [e0, hr]; omega
  | ⟨1, _⟩ => show win1_5.index t (1 : Fin 2) * 128 + 1 * q.val = q.val; rw [e1]; omega

/-- What point t writes back is block t of the layer's result. The body's one store covers the staging buffer
    from its origin, so the buffer holds the stored block; the loads are whole-buffer loads, so the stored block
    is computed from the five windows' blocks; and at each entry that is the result's entry. -/
theorem flushed_eq (c : Dev nD) (t : Fin cfg1.N) :
    (dat1 (F := Ideal) V c).flushed 5 t = ((cfg1.win 5).blk t).view.read (Elt Ideal) (result V c) := by
  show (cfg1.win 5).cut (grid1.coords t) ((dat1 V c).after 5 t) = _
  rw [after1_5]
  unfold out1_5
  rw [View.canon_unit_zero origin]
  simp only [View.ld_unit_zero (S := S4000x256) origin, View.ld_unit_zero (S := S4000x1) origin,
    View.ld_unit_zero (S := S256x128) origin, View.ld_unit_zero (S := S1x128) origin]
  funext j
  obtain ⟨p, q, rfl⟩ : ∃ (p : Fin 4000) (q : Fin 128), j = ix2 p q := ⟨j 0, j 1, eq_ix2 j⟩
  have ht : t.val < 25 := t.isLt
  have hr : t.val * 4000 + p.val < 100000 := by have := p.isLt; omega
  rw [View.read_apply]
  show k1_pay1 (iblk1 V c 0 t) (iblk1 V c 1 t) (iblk1 V c 3 t) (iblk1 V c 4 t) (iblk1 V c 2 t) (ix2 p q)
    = result V c (((cfg1.win 5).blk t).view.emb (ix2 p q))
  rw [out_rows t p q ⟨_, hr⟩ rfl]
  exact stored_eq_result V c t p q ⟨_, hr⟩ rfl

/-- An index of the output array is in point t's block iff each coordinate is in the block's range on its axis. -/
theorem mem_blk (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v26).slice (win1_5.rect t)).set ↔ _
  rw [View.set_slice_whole, Rect.mem_set_unit]
  exact Iff.rfl

/-- Every index of the output array is in the block of a point that writes back: row r is in the block of point
    r / 4000, because 4000 · (r / 4000) ≤ r < 4000 · (r / 4000) + 4000 and r < 100000 = 25 · 4000; every column is
    in every block. -/
theorem cover (i : S100000x128.Idx) :
    ∃ t : Fin cfg1.N, (cfg1.win 5).flush t = true ∧ i ∈ ((cfg1.win 5).blk t).view.set := by
  have hi0 : (i 0).val < 100000 := idx2_lt0 i
  have hi1 : (i 1).val < 128 := idx2_lt1 i
  have ht : (i 0).val / 4000 < cfg1.N := by rw [points]; omega
  refine ⟨⟨(i 0).val / 4000, ht⟩, flush1_5 _, ?_⟩
  rw [mem_blk]
  obtain ⟨-, -, -, -, -, -, -, -, -, -, e0, e1⟩ := block_index ⟨(i 0).val / 4000, ht⟩
  intro a
  match a with
  | ⟨0, _⟩ =>
    show win1_5.index ⟨(i 0).val / 4000, ht⟩ (0 : Fin 2) * 4000 ≤ (i 0).val
      ∧ (i 0).val < win1_5.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win1_5.index ⟨(i 0).val / 4000, ht⟩ (1 : Fin 2) * 128 ≤ (i 1).val
      ∧ (i 1).val < win1_5.index ⟨(i 0).val / 4000, ht⟩ (1 : Fin 2) * 128 + 128
    rw [e1]
    omega

end Layer1

/-- After the first fused layer the output array holds the layer's result of the arrays the layer found: the
    aggregated features with row r scaled by the destination-side factor of r, times the weights, plus the bias,
    its positive part, with row r scaled by the source-side factor of r. -/
theorem final1 (c : Dev nD) :
    (dat1 (F := Ideal) V c).arrAt 5 cfg1.N
      = Cert.Spec.rowScale (Cert.Spec.relu (Cert.Spec.linear (V c main_v24) (V c main_v12) (V c main_arg1) (V c main_v25))) (V c main_v11) :=
  (dat1 (F := Ideal) V c).arrAt_eq_of_cover 5 (Layer1.result V c) (fun t _ => Layer1.flushed_eq V c t) Layer1.cover

end Cert.KCover

end
-- ==== Proof.Region2.lean ====
import proofs.«152339_j21388937134410_2_alg».proof.Proof.Gen.KernelIdeal.Frame
import proofs.«152339_j21388937134410_2_alg».proof.Proof.Spec
import proofs.«152339_j21388937134410_2_alg».proof.Proof.LinearBlock
import Idealize.ShloMosaic.Lib.Pipeline.Value

/-
  The second fused layer, from its blocks to its array.

  The layer runs over 25 points. At point t it reads rows 4000·t … 4000·t + 3999 of the aggregated features
  A [100000, 128] and of the two columns s and s' [100000, 1], reads the weights w [128, 128] and the bias row
  b [1, 128] whole, and writes rows 4000·t … 4000·t + 3999 of the output [100000, 128]. What it writes at row p
  of its block, column q, is

      max (Σ_κ (A(r, κ) · s(r)) · w(κ, q) + b(0, q)) 0 · s'(r)        with r = 4000·t + p,

  which is the entry (r, q) of  rowScale (relu (linear A s w b)) s'. So every point writes back its block of that
  one array; the 25 blocks of 4000 rows tile the 100000 rows (row r lies in block r / 4000); hence the output
  array ends holding that array, whatever the arrays held when the layer was entered.
-/

set_option maxRecDepth 16384

noncomputable section

namespace Cert.KCover

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

namespace Layer2

/-- The origin of a whole-block rectangle, written as the constant zero. -/
theorem origin : (![0, 0] : Fin 2 → Nat) = fun _ => 0 := funext fun a => by fin_cases a <;> rfl

/-- The block indices of the six windows at point t, decided over the 25 points: the three row-blocked inputs and
    the output are at block (t, 0); the weights and the bias row are at block (0, 0). -/
theorem block_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The dimension numbers of the layer's product list the axes of the plain product [4000, 128] · [128, 128]. -/
theorem dims_plain : dot_S4000x128_S128x128_S4000x128_1_0_0_1_n_n = DotDims.plain 4000 128 128 := rfl

/-! ## What the body computes, at an entry of its block -/

/-- The stored block at (p, q), from the five blocks the body loads. -/
theorem stored_apply (x0 : Vec Ideal S4000x128 .f32) (x1 x2 : Vec Ideal S4000x1 .f32) (x3 : Vec Ideal S128x128 .f32)
    (x4 : Vec Ideal S1x128 .f32) (p : Fin 4000) (q : Fin 128) :
    k2_pay1 x0 x1 x3 x4 x2 (ix2 p q)
      = max ((∑ κ : Fin 128, (x0 (ix2 p κ) * x1 (ix2 p (0 : Fin 1))) * x3 (ix2 κ q)) + x4 (ix2 (0 : Fin 1) q))
          (Ideal.ofBits .f32 0x00000000#32) * x2 (ix2 p (0 : Fin 1)) := by
  unfold k2_pay1
  rw [dims_plain]
  exact Cert.LinearBlock.layer_apply x0 x1 x2 x3 x4 _ _ _ _ _ _ _ p q

/-! ## Each loaded block, as rows of its array -/

/-- The features' block at point t: row p of the block is row 4000·t + p of the array. -/
theorem features_rows (c : Dev nD) (t : Fin cfg2.N) (p : Fin 4000) (κ : Fin 128) (r : Fin 100000)
    (hr : r.val = t.val * 4000 + p.val) :
    (iblk2 V c 0 t : Vec Ideal S4000x128 .f32) (ix2 p κ) = (V c main_v37 : S100000x128.Idx → EReal) (ix2 r κ) := by
  unfold iblk2
  rw [View.read_apply]
  show (V c main_v37 : S100000x128.Idx → EReal) _ = V c main_v37 _
  refine congrArg (V c main_v37 : S100000x128.Idx → EReal) ?_
  obtain ⟨e0, e1, -⟩ := block_index t
  funext a; apply Fin.ext
  match a with
  | ⟨0, _⟩ => show win2_0.index t (0 : Fin 2) * 4000 + 1 * p.val = r.val; rw [e0, hr]; omega
  | ⟨1, _⟩ => show win2_0.index t (1 : Fin 2) * 128 + 1 * κ.val = κ.val; rw [e1]; omega

/-- The destination-side column's block at point t, likewise. -/
theorem dst_rows (c : Dev nD) (t : Fin cfg2.N) (p : Fin 4000) (u : Fin 1) (r : Fin 100000)
    (hr : r.val = t.val * 4000 + p.val) :
    (iblk2 V c 1 t : Vec Ideal S4000x1 .f32) (ix2 p u) = (V c main_v12 : S100000x1.Idx → EReal) (ix2 r u) := by
  unfold iblk2
  rw [View.read_apply]
  show (V c main_v12 : S100000x1.Idx → EReal) _ = V c main_v12 _
  refine congrArg (V c main_v12 : S100000x1.Idx → EReal) ?_
  obtain ⟨-, -, e0, e1, -⟩ := block_index t
  funext a; apply Fin.ext
  match a with
  | ⟨0, _⟩ => show win2_1.index t (0 : Fin 2) * 4000 + 1 * p.val = r.val; rw [e0, hr]; omega
  | ⟨1, _⟩ => show win2_1.index t (1 : Fin 2) * 1 + 1 * u.val = u.val; rw [e1]; omega

/-- The source-side column's block at point t, likewise. -/
theorem src_rows (c : Dev nD) (t : Fin cfg2.N) (p : Fin 4000) (u : Fin 1) (r : Fin 100000)
    (hr : r.val = t.val * 4000 + p.val) :
    (iblk2 V c 2 t : Vec Ideal S4000x1 .f32) (ix2 p u) = (V c main_v11 : S100000x1.Idx → EReal) (ix2 r u) := by
  unfold iblk2
  rw [View.read_apply]
  show (V c main_v11 : S100000x1.Idx → EReal) _ = V c main_v11 _
  refine congrArg (V c main_v11 : S100000x1.Idx → EReal) ?_
  obtain ⟨-, -, -, -, e0, e1, -⟩ := block_index t
  funext a; apply Fin.ext
  match a with
  | ⟨0, _⟩ => show win2_2.index t (0 : Fin 2) * 4000 + 1 * p.val = r.val; rw [e0, hr]; omega
  | ⟨1, _⟩ => show win2_2.index t (1 : Fin 2) * 1 + 1 * u.val = u.val; rw [e1]; omega

/-- The weights' block at every point is the whole array. -/
theorem weights_whole (c : Dev nD) (t : Fin cfg2.N) (κ : Fin 128) (q : Fin 128) :
    (iblk2 V c 3 t : Vec Ideal S128x128 .f32) (ix2 κ q) = (V c main_arg3 : S128x128.Idx → EReal) (ix2 κ q) := by
  unfold iblk2
  rw [View.read_apply]
  show (V c main_arg3 : S128x128.Idx → EReal) _ = V c main_arg3 _
  refine congrArg (V c main_arg3 : S128x128.Idx → EReal) ?_
  obtain ⟨-, -, -, -, -, -, e0, e1, -⟩ := block_index t
  funext a; apply Fin.ext
  match a with
  | ⟨0, _⟩ => show win2_3.index t (0 : Fin 2) * 128 + 1 * κ.val = κ.val; rw [e0]; omega
  | ⟨1, _⟩ => show win2_3.index t (1 : Fin 2) * 128 + 1 * q.val = q.val; rw [e1]; omega

/-- The bias row's block at every point is the whole row. -/
theorem bias_whole (c : Dev nD) (t : Fin cfg2.N) (u : Fin 1) (q : Fin 128) :
    (iblk2 V c 4 t : Vec Ideal S1x128 .f32) (ix2 u q) = (V c main_v38 : S1x128.Idx → EReal) (ix2 u q) := by
  unfold iblk2
  rw [View.read_apply]
  show (V c main_v38 : S1x128.Idx → EReal) _ = V c main_v38 _
  refine congrArg (V c main_v38 : S1x128.Idx → EReal) ?_
  obtain ⟨-, -, -, -, -, -, -, -, e0, e1, -⟩ := block_index t
  funext a; apply Fin.ext
  match a with
  | ⟨0, _⟩ => show win2_4.index t (0 : Fin 2) * 1 + 1 * u.val = u.val; rw [e0]; omega
  | ⟨1, _⟩ => show win2_4.index t (1 : Fin 2) * 128 + 1 * q.val = q.val; rw [e1]; omega

/-! ## The layer as one array -/

/-- The layer's result as one function of the five arrays the region finds. -/
abbrev result (c : Dev nD) : S100000x128.Idx → EReal :=
  Cert.Spec.rowScale (Cert.Spec.relu (Cert.Spec.linear (V c main_v37) (V c main_v12) (V c main_arg3) (V c main_v38)))
    (V c main_v11)

/-- What point t stores at (p, q) of its block is the entry (4000·t + p, q) of the layer's result: the stored
    value read through the rows of the five arrays is the result's defining expression at that entry. -/
theorem stored_eq_result (c : Dev nD) (t : Fin cfg2.N) (p : Fin 4000) (q : Fin 128) (r : Fin 100000)
    (hr : r.val = t.val * 4000 + p.val) :
    k2_pay1 (iblk2 V c 0 t) (iblk2 V c 1 t) (iblk2 V c 3 t) (iblk2 V c 4 t) (iblk2 V c 2 t) (ix2 p q)
      = result V c (ix2 r q) := by
  unfold result
  rw [stored_apply, Cert.Spec.rowScale_apply, Cert.Spec.relu_apply, Cert.Spec.linear_apply,
    dst_rows V c t p 0 r hr, src_rows V c t p 0 r hr, bias_whole V c t 0 q]
  refine congrArg (fun σ : EReal => max (σ + (V c main_v38 : S1x128.Idx → EReal) (ix2 (0 : Fin 1) q))
    (Ideal.ofBits .f32 0x00000000#32) * (V c main_v11 : S100000x1.Idx → EReal) (ix2 r (0 : Fin 1))) ?_
  refine Finset.sum_congr rfl fun κ _ => ?_
  rw [features_rows V c t p κ r hr, weights_whole V c t κ q]

/-! ## What a point writes back, and the array after the 25 points -/

/-- The grid has 25 points. -/
theorem points : cfg2.N = 25 := rfl

/-- The output's block at point t: the entry (p, q) of the block is the entry (4000·t + p, q) of the array. -/
theorem out_rows (t : Fin cfg2.N) (p : Fin 4000) (q : Fin 128) (r : Fin 100000) (hr : r.val = t.val * 4000 + p.val) :
    ((cfg2.win 5).blk t).view.emb (ix2 p q) = (ix2 r q : S100000x128.Idx) := by
  obtain ⟨-, -, -, -, -, -, -, -, -, -, e0, e1⟩ := block_index t
  funext a; apply Fin.ext
  match a with
  | ⟨0, _⟩ => show win2_5.index t (0 : Fin 2) * 4000 + 1 * p.val = r.val; rw [e0, hr]; omega
  | ⟨1, _⟩ => show win2_5.index t (1 : Fin 2) * 128 + 1 * q.val = q.val; rw [e1]; omega

/-- What point t writes back is block t of the layer's result. The body's one store covers the staging buffer
    from its origin, so the buffer holds the stored block; the loads are whole-buffer loads, so the stored block
    is computed from the five windows' blocks; and at each entry that is the result's entry. -/
theorem flushed_eq (c : Dev nD) (t : Fin cfg2.N) :
    (dat2 (F := Ideal) V c).flushed 5 t = ((cfg2.win 5).blk t).view.read (Elt Ideal) (result V c) := by
  show (cfg2.win 5).cut (grid2.coords t) ((dat2 V c).after 5 t) = _
  rw [after2_5]
  unfold out2_5
  rw [View.canon_unit_zero origin]
  simp only [View.ld_unit_zero (S := S4000x128) origin, View.ld_unit_zero (S := S4000x1) origin,
    View.ld_unit_zero (S := S128x128) origin, View.ld_unit_zero (S := S1x128) origin]
  funext j
  obtain ⟨p, q, rfl⟩ : ∃ (p : Fin 4000) (q : Fin 128), j = ix2 p q := ⟨j 0, j 1, eq_ix2 j⟩
  have ht : t.val < 25 := t.isLt
  have hr : t.val * 4000 + p.val < 100000 := by have := p.isLt; omega
  rw [View.read_apply]
  show k2_pay1 (iblk2 V c 0 t) (iblk2 V c 1 t) (iblk2 V c 3 t) (iblk2 V c 4 t) (iblk2 V c 2 t) (ix2 p q)
    = result V c (((cfg2.win 5).blk t).view.emb (ix2 p q))
  rw [out_rows t p q ⟨_, hr⟩ rfl]
  exact stored_eq_result V c t p q ⟨_, hr⟩ rfl

/-- An index of the output array is in point t's block iff each coordinate is in the block's range on its axis. -/
theorem mem_blk (t : Fin cfg2.N) (i : S100000x128.Idx) :
    i ∈ ((cfg2.win 5).blk t).view.set ↔ ∀ a : Fin 2, win2_5.index t a * S4000x128.size a ≤ (i a).val
      ∧ (i a).val < win2_5.index t a * S4000x128.size a + S4000x128.size a := by
  show i ∈ ((View.whole main_v39).slice (win2_5.rect t)).set ↔ _
  rw [View.set_slice_whole, Rect.mem_set_unit]
  exact Iff.rfl

/-- Every index of the output array is in the block of a point that writes back: row r is in the block of point
    r / 4000, because 4000 · (r / 4000) ≤ r < 4000 · (r / 4000) + 4000 and r < 100000 = 25 · 4000; every column is
    in every block. -/
theorem cover (i : S100000x128.Idx) :
    ∃ t : Fin cfg2.N, (cfg2.win 5).flush t = true ∧ i ∈ ((cfg2.win 5).blk t).view.set := by
  have hi0 : (i 0).val < 100000 := idx2_lt0 i
  have hi1 : (i 1).val < 128 := idx2_lt1 i
  have ht : (i 0).val / 4000 < cfg2.N := by rw [points]; omega
  refine ⟨⟨(i 0).val / 4000, ht⟩, flush2_5 _, ?_⟩
  rw [mem_blk]
  obtain ⟨-, -, -, -, -, -, -, -, -, -, e0, e1⟩ := block_index ⟨(i 0).val / 4000, ht⟩
  intro a
  match a with
  | ⟨0, _⟩ =>
    show win2_5.index ⟨(i 0).val / 4000, ht⟩ (0 : Fin 2) * 4000 ≤ (i 0).val
      ∧ (i 0).val < win2_5.index ⟨(i 0).val / 4000, ht⟩ (0 : Fin 2) * 4000 + 4000
    rw [e0]
    show (i 0).val / 4000 * 4000 ≤ (i 0).val ∧ (i 0).val < (i 0).val / 4000 * 4000 + 4000
    omega
  | ⟨1, _⟩ =>
    show win2_5.index ⟨(i 0).val / 4000, ht⟩ (1 : Fin 2) * 128 ≤ (i 1).val
      ∧ (i 1).val < win2_5.index ⟨(i 0).val / 4000, ht⟩ (1 : Fin 2) * 128 + 128
    rw [e1]
    omega

end Layer2

/-- After the second fused layer the output array holds the layer's result of the arrays the layer found: the
    aggregated features with row r scaled by the destination-side factor of r, times the weights, plus the bias,
    its positive part, with row r scaled by the source-side factor of r. -/
theorem final2 (c : Dev nD) :
    (dat2 (F := Ideal) V c).arrAt 5 cfg2.N
      = Cert.Spec.rowScale (Cert.Spec.relu (Cert.Spec.linear (V c main_v37) (V c main_v12) (V c main_arg3) (V c main_v38))) (V c main_v11) :=
  (dat2 (F := Ideal) V c).arrAt_eq_of_cover 5 (Layer2.result V c) (fun t _ => Layer2.flushed_eq V c t) Layer2.cover

end Cert.KCover

end
-- ==== Proof.FinalBlock.lean ====
/-
  The last layer on one block of rows, read at one entry.

  A block of the last layer holds, for rows p of the block and output columns q,

      out(p, q) = Σ_κ (x(p, κ) · s(p)) · w(κ, q) + b(q),

  where x : [a, k] is the block of aggregated features, s : [a, 1] the column of row factors, w : [k, d] the
  weights and b : [1, d] the bias row. The program spells it in steps: the column s is repeated along every row
  to the shape of x and multiplied in entry by entry; the scaled block and the weights are narrowed to the
  16-bit format, which on the extended reals changes nothing; their matrix product is accumulated into a zero
  block, so it is the bare sum over κ; and the bias row is repeated down the a rows and added. Each step is read
  at the entry (p, q) here, for all extents a, k, d.
-/
import Idealize.ShloMosaic.PureOps.Ideal.Laws
import Idealize.ShloMosaic.Lib.ValueIdx
import Idealize.ShloMosaic.Lib.ValueLayout
import Idealize.ShloMosaic.Lib.Pipeline.Value
import proofs.«152339_j21388937134410_2_alg».proof.Proof.LibPlainDot
import proofs.«152339_j21388937134410_2_alg».proof.Proof.LibColumn

noncomputable section

open scoped BigOperators

namespace Cert.FinalBlock

open Idealize.ShloMosaic Idealize.ShloMosaic.ValueIdx

variable {a k d : ℕ}

/-- The scaled block at (p, κ): x(p, κ) · s(p). The casts to the same shape are the identity, the column repeated
    along the row reads s at (p, 0) whatever κ, the product is entry by entry, and narrowing the format keeps the
    extended real. -/
theorem scaled_apply (x : FVec Ideal ⟨2, ![a, k]⟩ .f32) (s : FVec Ideal ⟨2, ![a, 1]⟩ .f32)
    (h₁ : (⟨2, ![a, k]⟩ : Shape).ShapeCasts ⟨2, ![a, k]⟩) (h₂ : (⟨2, ![a, 1]⟩ : Shape).ShapeCasts ⟨2, ![a, 1]⟩)
    (h₃ : (⟨2, ![a, 1]⟩ : Shape).Broadcasts ⟨2, ![a, k]⟩) (hb : FTy.bits .bf16 < FTy.bits .f32)
    (p : Fin a) (κ : Fin k) :
    (truncf .bf16 (mulf (shapeCast ⟨2, ![a, k]⟩ x h₁) (broadcastTo ⟨2, ![a, k]⟩ (shapeCast ⟨2, ![a, 1]⟩ s h₂) h₃)) hb
        : FVec Ideal ⟨2, ![a, k]⟩ .bf16) (ix2 p κ)
      = x (ix2 p κ) * s (ix2 p (0 : Fin 1)) := by
  rw [truncf_apply, mulf_apply, shapeCast_self, Cert.LibColumn.broadcastTo_a1_ab_apply, shapeCast_self]

/-- The whole block at (p, q): the sum over κ of the scaled block's (p, κ) times the weight (κ, q), plus the bias
    at q. The product into the zero block is the sum over the contracted axis; the bias row repeated down the
    rows reads b at (0, q) whatever p. -/
theorem linear_block_apply (x : FVec Ideal ⟨2, ![a, k]⟩ .f32) (s : FVec Ideal ⟨2, ![a, 1]⟩ .f32)
    (w : FVec Ideal ⟨2, ![k, d]⟩ .f32) (b : FVec Ideal ⟨2, ![1, d]⟩ .f32)
    (h₁ : (⟨2, ![a, k]⟩ : Shape).ShapeCasts ⟨2, ![a, k]⟩) (h₂ : (⟨2, ![a, 1]⟩ : Shape).ShapeCasts ⟨2, ![a, 1]⟩)
    (h₃ : (⟨2, ![a, 1]⟩ : Shape).Broadcasts ⟨2, ![a, k]⟩) (hb : FTy.bits .bf16 < FTy.bits .f32)
    (h₄ : (⟨2, ![1, d]⟩ : Shape).ShapeCasts ⟨2, ![1, d]⟩) (h₅ : (⟨2, ![1, d]⟩ : Shape).Broadcasts ⟨2, ![a, d]⟩)
    (p : Fin a) (q : Fin d) :
    addf
        (FloatOps.matmul (DotDims.plain a k d) none
          (truncf .bf16 (mulf (shapeCast ⟨2, ![a, k]⟩ x h₁) (broadcastTo ⟨2, ![a, k]⟩ (shapeCast ⟨2, ![a, 1]⟩ s h₂) h₃)) hb
            : FVec Ideal ⟨2, ![a, k]⟩ .bf16)
          (truncf .bf16 w hb : FVec Ideal ⟨2, ![k, d]⟩ .bf16)
          (constant (F := Ideal) ⟨2, ![a, d]⟩ .f32 0x00000000#32))
        (broadcastTo ⟨2, ![a, d]⟩ (shapeCast ⟨2, ![1, d]⟩ b h₄) h₅) (ix2 p q)
      = (∑ κ : Fin k, (x (ix2 p κ) * s (ix2 p (0 : Fin 1))) * w (ix2 κ q)) + b (ix2 (0 : Fin 1) q) := by
  rw [addf_apply, Cert.LibPlainDot.matmul_zero_apply, broadcastTo_1b_ab_apply, shapeCast_self b]
  refine congrArg (· + b (ix2 (0 : Fin 1) q)) ?_
  exact Finset.sum_congr rfl fun κ _ => by rw [scaled_apply, truncf_apply]

end Cert.FinalBlock

end
-- ==== Proof.Region3.lean ====
import proofs.«152339_j21388937134410_2_alg».proof.Proof.Gen.KernelIdeal.Frame
import proofs.«152339_j21388937134410_2_alg».proof.Proof.Spec
import proofs.«152339_j21388937134410_2_alg».proof.Proof.FinalBlock
import Idealize.ShloMosaic.Lib.Pipeline.Value
import Idealize.ShloMosaic.Lib.ValueIdx

/-
  The last layer, from its blocks to the whole array.

  The last kernel takes the aggregated features A : [100000, 128], the column of row factors s : [100000, 1], the
  weights w : [128, 64] and the bias row b : [1, 64], and computes

      out(r, q) = Σ_κ (A(r, κ) · s(r)) · w(κ, q) + b(q)        (Spec.linear A s w b)

  in 25 steps; step t reads the rows 4000·t … 4000·t + 3999 of A and of s, all of w and all of b, and writes the
  same rows of the result. As for the row scaling, three things are shown, for every content of the machine's
  arrays when the kernel starts: what one step computes entry by entry; that what it writes back is the block of
  rows 4000·t … of Spec.linear of the whole arrays; and that the 25 blocks cover the 100000 rows.
-/

set_option maxRecDepth 16384

noncomputable section

open scoped BigOperators

namespace Cert.KCover

namespace LastLayer

open Idealize.ShloMosaic Idealize.ShloMosaic.TcCoe Idealize.ShloMosaic.ValueIdx Idealize.SL.Sem
open Cert.KernelIdeal Cert.KernelIdeal.Gen

/-! ## One step, entry by entry -/

/-- The step's matrix product contracts the second axis of its left operand [4000, 128] against the first axis of
    its right operand [128, 64], with no batch axis: the plain product's dimension numbers. -/
theorem finalDims : dot_S4000x128_S128x64_S4000x64_1_0_0_1_n_n = DotDims.plain 4000 128 64 := rfl

/-- The step's result block as operations on its four input blocks: the rows of x scaled by the column s, the
    scaled block and the weights narrowed to the 16-bit format and multiplied into a zero block, the bias row
    repeated down the rows and added. -/
theorem finalStep_eq (x : Vec Ideal S4000x128 .f32) (s : Vec Ideal S4000x1 .f32) (w : Vec Ideal S128x64 .f32)
    (b : Vec Ideal S1x64 .f32) :
    k3_pay1 x s w b
      = addf
          (FloatOps.matmul dot_S4000x128_S128x64_S4000x64_1_0_0_1_n_n none
            (truncf .bf16 (mulf (shapeCast S4000x128 x shapeCasts_S4000x128_S4000x128)
              (broadcastTo S4000x128 (shapeCast S4000x1 s shapeCasts_S4000x1_S4000x1) broadcasts_S4000x1_S4000x128))
              bitsLt_bf16_f32 : FVec Ideal S4000x128 .bf16)
            (truncf .bf16 w bitsLt_bf16_f32 : FVec Ideal S128x64 .bf16)
            (constant (F := Ideal) S4000x64 .f32 0x00000000#32))
          (broadcastTo S4000x64 (shapeCast S1x64 b shapeCasts_S1x64_S1x64) broadcasts_S1x64_S4000x64) := rfl

/-- At row p and column q the step's result is Σ_κ (x(p, κ) · s(p, 0)) · w(κ, q) + b(0, q). -/
theorem finalStep_apply (x : Vec Ideal S4000x128 .f32) (s : Vec Ideal S4000x1 .f32) (w : Vec Ideal S128x64 .f32)
    (b : Vec Ideal S1x64 .f32) (p : Fin 4000) (q : Fin 64) :
    k3_pay1 x s w b (ix2 p q)
      = (∑ κ : Fin 128, (x (ix2 p κ) * s (ix2 p (0 : Fin 1))) * w (ix2 κ q)) + b (ix2 (0 : Fin 1) q) := by
  rw [finalStep_eq, finalDims]
  exact Cert.FinalBlock.linear_block_apply x s w b _ _ _ _ _ _ p q

/-! ## Where a block lies in its array -/

/-- The zero offset of a rank-2 rectangle, in the spelling of the kernel's loads and stores. -/
theorem origin2 : (![0, 0] : Fin 2 → Nat) = fun _ => 0 := funext fun a => by fin_cases a <;> rfl

/-- The kernel runs 25 steps. -/
theorem steps3 : cfg3.N = 25 := N_3

/-- At step t the windows of A, of s and of the result are at block t along the rows and at block 0 along the
    columns; the windows of the weights and of the bias stay at their one block: decided once over the 25 steps. -/
theorem blockIndex3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Row p of step t's block is row 4000·t + p of the array: 25 blocks of 4000 rows are the 100000 rows. -/
abbrev blockRow3 (t : Fin cfg3.N) (p : Fin 4000) : Fin 100000 :=
  ⟨4000 * t.val + p.val, by have h : t.val < 25 := lt_of_lt_of_eq t.isLt steps3; omega⟩

/-- The block of A at step t, at (p, κ), is A at (4000·t + p, κ): a block's coordinate in its array is the block's
    index times the block's size plus the coordinate inside the block. -/
theorem aBlock3_apply (V : (c : Dev nD) → (b : Ref sig .tc) → Buf (Elt Ideal) ((c : Thread nD τ).loc b))
    (c : Dev nD) (t : Fin cfg3.N) (p : Fin 4000) (κ : Fin 128) :
    (iblk3 V c 0 t : Vec Ideal S4000x128 .f32) (ix2 p κ)
      = (V c main_v50 : S100000x128.Idx → EReal) (ix2 (blockRow3 t p) κ) := by
  obtain ⟨e0, e1, -⟩ := blockIndex3 t
  unfold iblk3
  rw [View.read_apply]
  show V c main_v50 (((cfg3.win 0).blk t).view.emb (ix2 p κ)) = _
  refine congrArg (V c main_v50) ?_
  funext a
  apply Fin.ext
  match a with
  | ⟨0, _⟩ => show win3_0.index t (0 : Fin 2) * 4000 + 1 * p.val = 4000 * t.val + p.val; rw [e0]; omega
  | ⟨1, _⟩ => show win3_0.index t (1 : Fin 2) * 128 + 1 * κ.val = κ.val; rw [e1]; omega

/-- The block of s at step t, at (p, 0), is s at (4000·t + p, 0). -/
theorem sBlock3_apply (V : (c : Dev nD) → (b : Ref sig .tc) → Buf (Elt Ideal) ((c : Thread nD τ).loc b))
    (c : Dev nD) (t : Fin cfg3.N) (p : Fin 4000) (u : Fin 1) :
    (iblk3 V c 1 t : Vec Ideal S4000x1 .f32) (ix2 p u)
      = (V c main_v12 : S100000x1.Idx → EReal) (ix2 (blockRow3 t p) u) := by
  obtain ⟨-, -, e0, e1, -⟩ := blockIndex3 t
  unfold iblk3
  rw [View.read_apply]
  show V c main_v12 (((cfg3.win 1).blk t).view.emb (ix2 p u)) = _
  refine congrArg (V c main_v12) ?_
  funext a
  apply Fin.ext
  match a with
  | ⟨0, _⟩ => show win3_1.index t (0 : Fin 2) * 4000 + 1 * p.val = 4000 * t.val + p.val; rw [e0]; omega
  | ⟨1, _⟩ => show win3_1.index t (1 : Fin 2) * 1 + 1 * u.val = u.val; rw [e1]; omega

/-- The block of the weights is, at every step, the whole array of the weights. -/
theorem wBlock3_apply (V : (c : Dev nD) → (b : Ref sig .tc) → Buf (Elt Ideal) ((c : Thread nD τ).loc b))
    (c : Dev nD) (t : Fin cfg3.N) (κ : Fin 128) (q : Fin 64) :
    (iblk3 V c 2 t : Vec Ideal S128x64 .f32) (ix2 κ q) = (V c main_arg5 : S128x64.Idx → EReal) (ix2 κ q) := by
  obtain ⟨-, -, -, -, e0, e1, -⟩ := blockIndex3 t
  unfold iblk3
  rw [View.read_apply]
  show V c main_arg5 (((cfg3.win 2).blk t).view.emb (ix2 κ q)) = _
  refine congrArg (V c main_arg5) ?_
  funext a
  apply Fin.ext
  match a with
  | ⟨0, _⟩ => show win3_2.index t (0 : Fin 2) * 128 + 1 * κ.val = κ.val; rw [e0]; omega
  | ⟨1, _⟩ => show win3_2.index t (1 : Fin 2) * 64 + 1 * q.val = q.val; rw [e1]; omega

/-- The block of the bias is, at every step, the whole bias row. -/
theorem bBlock3_apply (V : (c : Dev nD) → (b : Ref sig .tc) → Buf (Elt Ideal) ((c : Thread nD τ).loc b))
    (c : Dev nD) (t : Fin cfg3.N) (u : Fin 1) (q : Fin 64) :
    (iblk3 V c 3 t : Vec Ideal S1x64 .f32) (ix2 u q) = (V c main_v51 : S1x64.Idx → EReal) (ix2 u q) := by
  obtain ⟨-, -, -, -, -, -, e0, e1, -⟩ := blockIndex3 t
  unfold iblk3
  rw [View.read_apply]
  show V c main_v51 (((cfg3.win 3).blk t).view.emb (ix2 u q)) = _
  refine congrArg (V c main_v51) ?_
  funext a
  apply Fin.ext
  match a with
  | ⟨0, _⟩ => show win3_3.index t (0 : Fin 2) * 1 + 1 * u.val = u.val; rw [e0]; omega
  | ⟨1, _⟩ => show win3_3.index t (1 : Fin 2) * 64 + 1 * q.val = q.val; rw [e1]; omega

/-- The place in the result array of entry (p, q) of step t's block: (4000·t + p, q). -/
theorem outPlace3 (t : Fin cfg3.N) (p : Fin 4000) (q : Fin 64) :
    (((cfg3.win 4).blk t).view.emb (ix2 p q) : S100000x64.Idx) = ix2 (blockRow3 t p) q := by
  obtain ⟨-, -, -, -, -, -, -, -, e0, e1⟩ := blockIndex3 t
  funext a
  apply Fin.ext
  match a with
  | ⟨0, _⟩ => show win3_4.index t (0 : Fin 2) * 4000 + 1 * p.val = 4000 * t.val + p.val; rw [e0]; omega
  | ⟨1, _⟩ => show win3_4.index t (1 : Fin 2) * 64 + 1 * q.val = q.val; rw [e1]; omega

section Array

variable (V : (c : Dev nD) → (b : Ref sig .tc) → Buf (Elt Ideal) ((c : Thread nD τ).loc b))

/-! ## What a step writes back -/

/-- What step t writes back is the block of rows 4000·t … 4000·t + 3999 of linear A s w b: the staging buffer holds
    the one whole-block store's payload; at (p, q) that is Σ_κ (A-block(p, κ) · s-block(p, 0)) · w-block(κ, q)
    + b-block(0, q); the blocks of A and s read rows 4000·t + p, the blocks of w and b are the whole arrays; and
    linear A s w b at (4000·t + p, q) is the same sum over the whole arrays. -/
theorem flushed3_eq (c : Dev nD) (t : Fin cfg3.N) :
    (dat3 (F := Ideal) V c).flushed 4 t
      = ((cfg3.win 4).blk t).view.read (Elt Ideal)
          (Cert.Spec.linear (V c main_v50) (V c main_v12) (V c main_arg5) (V c main_v51)) := by
  show (cfg3.win 4).cut (grid3.coords t) ((dat3 (F := Ideal) V c).after 4 t) = _
  rw [after3_4]
  unfold out3_4
  rw [View.canon_unit_zero origin2]
  simp only [View.ld_unit_zero (S := S4000x128) origin2, View.ld_unit_zero (S := S4000x1) origin2,
    View.ld_unit_zero (S := S128x64) origin2, View.ld_unit_zero (S := S1x64) origin2]
  funext j
  obtain ⟨p, q, rfl⟩ : ∃ (p : Fin 4000) (q : Fin 64), j = ix2 p q := ⟨j 0, j 1, eq_ix2 j⟩
  show k3_pay1 (iblk3 V c 0 t) (iblk3 V c 1 t) (iblk3 V c 2 t) (iblk3 V c 3 t) (ix2 p q)
    = Cert.Spec.linear (V c main_v50) (V c main_v12) (V c main_arg5) (V c main_v51)
        (((cfg3.win 4).blk t).view.emb (ix2 p q))
  rw [finalStep_apply, outPlace3, Cert.Spec.linear_apply, sBlock3_apply, bBlock3_apply]
  refine congrArg₂ (· + ·) (Finset.sum_congr rfl fun κ _ => ?_) rfl
  rw [aBlock3_apply, wBlock3_apply]

/-! ## The blocks cover the array -/

/-- An index of the result array is in step t's block iff, on each axis, its coordinate is within the block's
    range there. -/
theorem mem_outBlock3 (t : Fin cfg3.N) (i : S100000x64.Idx) :
    i ∈ ((cfg3.win 4).blk t).view.set
      ↔ ∀ a : Fin 2, win3_4.index t a * S4000x64.size a ≤ (i a).val
          ∧ (i a).val < win3_4.index t a * S4000x64.size a + S4000x64.size a := by
  show i ∈ ((View.whole main_v52).slice (win3_4.rect t)).set ↔ _
  rw [View.set_slice_whole, Rect.mem_set_unit]
  exact Iff.rfl

/-- Every index (r, q) of the result array is in the block of step r / 4000, which is written back:
    4000 · (r / 4000) ≤ r < 4000 · (r / 4000) + 4000, and r < 100000 gives r / 4000 < 25. -/
theorem cover3 (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  have hlt : (i 0).val / 4000 < cfg3.N := by rw [steps3]; omega
  obtain ⟨-, -, -, -, -, -, -, -, e0, e1⟩ := blockIndex3 ⟨(i 0).val / 4000, hlt⟩
  refine ⟨⟨(i 0).val / 4000, hlt⟩, flush3_4 _, ?_⟩
  rw [mem_outBlock3]
  intro a
  match a with
  | ⟨0, _⟩ =>
    show win3_4.index ⟨(i 0).val / 4000, hlt⟩ (0 : Fin 2) * 4000 ≤ (i 0).val
      ∧ (i 0).val < win3_4.index ⟨(i 0).val / 4000, hlt⟩ (0 : Fin 2) * 4000 + 4000
    rw [e0]
    show (i 0).val / 4000 * 4000 ≤ (i 0).val ∧ (i 0).val < (i 0).val / 4000 * 4000 + 4000
    omega
  | ⟨1, _⟩ =>
    show win3_4.index ⟨(i 0).val / 4000, hlt⟩ (1 : Fin 2) * 64 ≤ (i 1).val
      ∧ (i 1).val < win3_4.index ⟨(i 0).val / 4000, hlt⟩ (1 : Fin 2) * 64 + 64
    rw [e1]
    omega

end Array

end LastLayer

/-! ## The array after the last step -/

open Idealize.ShloMosaic Idealize.ShloMosaic.TcCoe Idealize.SL.Sem Cert.KernelIdeal Cert.KernelIdeal.Gen in
/-- After the 25 steps the result array holds linear of the arrays A, s, w, b the kernel found: every step writes
    its block of that one function, and the blocks cover the array. -/
theorem final3 (V : (c : Dev nD) → (b : Ref sig .tc) → Buf (Elt Ideal) ((c : Thread nD τ).loc b)) (c : Dev nD) :
    (dat3 (F := Ideal) V c).arrAt 4 cfg3.N
      = Cert.Spec.linear (V c main_v50) (V c main_v12) (V c main_arg5) (V c main_v51) :=
  (dat3 (F := Ideal) V c).arrAt_eq_of_cover 4
    (Cert.Spec.linear (V c main_v50) (V c main_v12) (V c main_arg5) (V c main_v51))
    (fun t _ => LastLayer.flushed3_eq V c t) LastLayer.cover3

end Cert.KCover

end
-- ==== Proof.KVal.lean ====
import proofs.«152339_j21388937134410_2_alg».proof.KernelIdeal
import proofs.«152339_j21388937134410_2_alg».proof.Proof.Gen.KernelIdeal
import proofs.«152339_j21388937134410_2_alg».proof.Proof.Spec
import Idealize.ShloMosaic.PureOps.Ideal

noncomputable section

namespace Cert.KVal

open Idealize.ShloMosaic Cert.KernelIdeal Cert.KernelIdeal.Facts₀ Cert.KernelIdeal.Facts

/-- An edge's endpoint as the host reads it: a negative index counts from the end (100000 is added to it), and the
    vector of indices becomes a column. -/
def wrap (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 100000#32))) idx)

/-- The inverse square root of a node's degree, the degree counted over the edge endpoints idx (a one added at
    each endpoint's node) and taken at least one. -/
def invSqrtDeg (idx : IVec S800000 32) : FVec Ideal S100000 .f32 :=
  Host.rsqrt (maximumf (broadcastInDim S100000 ![] bcast_S_S100000 (id (constant S_ .f32 0x3F800000#32)))
    (Host.scatterAdd scatter_S100000_S800000x1_S800000_n_0_0_1
      (broadcastInDim S100000 ![] bcast_S_S100000 (constant S_ .f32 0x00000000#32))
      (broadcastInDim S800000x1 ![0] bcast_S800000_S800000x1_0 idx)
      (broadcastInDim S800000 ![] bcast_S_S800000 (constant S_ .f32 0x3F800000#32))))

/-- A vector over the nodes as a column. -/
def column (v : FVec Ideal S100000 .f32) : FVec Ideal S100000x1 .f32 := shapeCast S100000x1 v shapeCasts_S100000_S100000x1

/-- The 256-wide features h gathered along the edges' sources and summed into the edges' destinations. -/
def agg256 (h : FVec Ideal S100000x256 .bf16) (src dst : IVec S800000 32) : FVec Ideal S100000x256 .f32 :=
  Host.scatterAdd scatter_S100000x256_S800000x1_S800000x256_1_0_0_1
    (broadcastInDim S100000x256 ![] bcast_S_S100000x256 (constant S_ .f32 0x00000000#32))
    (broadcastInDim S800000x1 ![0] bcast_S800000_S800000x1_0 dst)
    (extf .f32 (Host.gather gather_S100000x256_S800000x1_S800000x256_1_0_n_n_0_1_1256 h (wrap src)) bitsLt_bf16_f32)

/-- The same for 128-wide features. -/
def agg128 (h : FVec Ideal S100000x128 .bf16) (src dst : IVec S800000 32) : FVec Ideal S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 dst)
    (extf .f32 (Host.gather gather_S100000x128_S800000x1_S800000x128_1_0_n_n_0_1_1128 h (wrap src)) bitsLt_bf16_f32)

/-- The features after the first call: x with row p scaled by the source-side factor of node p. -/
def h0 (x : FVec Ideal S100000x256 .f32) (src : IVec S800000 32) : FVec Ideal S100000x256 .bf16 :=
  Cert.Spec.rowScale x (column (invSqrtDeg src))

/-- After the second call: the first layer's output, already scaled by the source-side factor for the next gather. -/
def h1 (x : FVec Ideal S100000x256 .f32) (W1 : FVec Ideal S256x128 .f32) (b1 : FVec Ideal S128 .f32)
    (src dst : IVec S800000 32) : FVec Ideal S100000x128 .bf16 :=
  Cert.Spec.rowScale (Cert.Spec.relu (Cert.Spec.linear (agg256 (h0 x src) src dst) (column (invSqrtDeg dst)) W1
    (shapeCast S1x128 b1 shapeCasts_S128_S1x128))) (column (invSqrtDeg src))

/-- After the third call: the second layer's output, scaled likewise. -/
def h2 (x : FVec Ideal S100000x256 .f32) (W1 : FVec Ideal S256x128 .f32) (b1 : FVec Ideal S128 .f32)
    (W2 : FVec Ideal S128x128 .f32) (b2 : FVec Ideal S128 .f32) (src dst : IVec S800000 32) : FVec Ideal S100000x128 .bf16 :=
  Cert.Spec.rowScale (Cert.Spec.relu (Cert.Spec.linear (agg128 (h1 x W1 b1 src dst) src dst) (column (invSqrtDeg dst)) W2
    (shapeCast S1x128 b2 shapeCasts_S128_S1x128))) (column (invSqrtDeg src))

/-- The result: the third layer, with neither the positive part nor the scaling for a next gather. -/
def h3 (x : FVec Ideal S100000x256 .f32) (W1 : FVec Ideal S256x128 .f32) (b1 : FVec Ideal S128 .f32)
    (W2 : FVec Ideal S128x128 .f32) (b2 : FVec Ideal S128 .f32) (W3 : FVec Ideal S128x64 .f32) (b3 : FVec Ideal S64 .f32)
    (src dst : IVec S800000 32) : FVec Ideal S100000x64 .f32 :=
  Cert.Spec.linear (agg128 (h2 x W1 b1 W2 b2 src dst) src dst) (column (invSqrtDeg dst)) W3
    (shapeCast S1x64 b3 shapeCasts_S64_S1x64)

end Cert.KVal

end
-- ==== Proof.FoldHost.lean ====
/-
  The host operations between the kernel's four calls, read as array-level functions.

  The program runs eight stretches of host operations: five before the first call (the two degree counts, each
  clipped at one and turned into an inverse square root, then reshaped to a column), and one before each of the
  three later calls (the gather of the previous features along the edges' sources, the sum into the edges'
  destinations, and the reshape of the bias to a row).  Each stretch is a fold of single-result operations over the
  buffer contents.  Two kinds of fact are stated here, each for ANY contents V the stretch starts from:

  * a buffer that is no operation's result holds afterwards what it held before (skip…);
  * a result buffer holds afterwards the operations' composed function of the buffers the stretch read.

  The composed functions are the array-level terms of KVal.lean: invSqrtDeg, column, agg256, agg128.
-/
import proofs.«152339_j21388937134410_2_alg».proof.Proof.Gen.KernelIdeal.Frame
import proofs.«152339_j21388937134410_2_alg».proof.Proof.KVal
import Idealize.ShloMosaic.Lib.StableHlo.Run

set_option maxRecDepth 16384

noncomputable section

namespace Cert.KFold

open Cert.KernelIdeal Cert.KernelIdeal.Gen Idealize.ShloMosaic Idealize.ShloMosaic.TcCoe Idealize.SL.Sem Idealize.ShloMosaic.StableHlo

variable (V : Valuation τ sig (Elt Ideal))

/-! ## What a stretch of host operations leaves untouched

A buffer that is the result of none of a stretch's operations holds after the stretch what it held before.  For
each stretch the results are listed once, and any reference outside the list passes through. -/

/-- One operation's result, a reference of the list, is among the list's device buffers. -/
private theorem mem_writes {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The first stretch (the count of the edges' sources per node) writes seven buffers. -/
theorem skip0 (r : Ref sig .tc)
    (hr : r ∉ [main_cst, main_v0, main_cst_0, main_v1, main_v2, main_v3, main_cst_1]) :
    after (hostOps0 (F := Ideal)) V (Proc.devRef .tc r) = V (Proc.devRef .tc r) :=
  after_of_writes_sub _ V
    ⟨mem_writes (by decide), mem_writes (by decide), mem_writes (by decide), mem_writes (by decide),
      mem_writes (by decide), mem_writes (by decide), mem_writes (by decide)⟩ hr

/-- The clip of the source count at one writes three. -/
theorem skip0_1 (r : Ref sig .tc) (hr : r ∉ [main_call0_v0, main_call0_v1, main_v4]) :
    after (hostOps0_1 (F := Ideal)) V (Proc.devRef .tc r) = V (Proc.devRef .tc r) :=
  after_of_writes_sub _ V ⟨mem_writes (by decide), mem_writes (by decide), mem_writes (by decide)⟩ hr

/-- The count of the edges' destinations per node writes five. -/
theorem skip0_2 (r : Ref sig .tc) (hr : r ∉ [main_cst_2, main_v5, main_v6, main_v7, main_cst_3]) :
    after (hostOps0_2 (F := Ideal)) V (Proc.devRef .tc r) = V (Proc.devRef .tc r) :=
  after_of_writes_sub _ V
    ⟨mem_writes (by decide), mem_writes (by decide), mem_writes (by decide), mem_writes (by decide),
      mem_writes (by decide)⟩ hr

/-- The clip of the destination count at one writes three. -/
theorem skip0_3 (r : Ref sig .tc) (hr : r ∉ [main_call1_v0, main_call1_v1, main_v8]) :
    after (hostOps0_3 (F := Ideal)) V (Proc.devRef .tc r) = V (Proc.devRef .tc r) :=
  after_of_writes_sub _ V ⟨mem_writes (by decide), mem_writes (by decide), mem_writes (by decide)⟩ hr

/-- The two inverse square roots and their reshapes to columns write four. -/
theorem skip0_4 (r : Ref sig .tc) (hr : r ∉ [main_v9, main_v10, main_v11, main_v12]) :
    after (hostOps0_4 (F := Ideal)) V (Proc.devRef .tc r) = V (Proc.devRef .tc r) :=
  after_of_writes_sub _ V
    ⟨mem_writes (by decide), mem_writes (by decide), mem_writes (by decide), mem_writes (by decide)⟩ hr

/-- The stretch before the second call (wrap the sources, gather, widen, sum into the destinations, the bias as a
    row) writes fifteen buffers; the stretches before the third and the last call likewise. -/
theorem skip1 (r : Ref sig .tc)
    (hr : r ∉ [main_c, main_v14, main_v15, main_c_4, main_v16, main_v17, main_v18, main_v19, main_v20, main_v21,
      main_cst_5, main_v22, main_v23, main_v24, main_v25]) :
    after (hostOps1 (F := Ideal)) V (Proc.devRef .tc r) = V (Proc.devRef .tc r) :=
  after_of_writes_sub _ V
    ⟨mem_writes (by decide), mem_writes (by decide), mem_writes (by decide), mem_writes (by decide),
      mem_writes (by decide), mem_writes (by decide), mem_writes (by decide), mem_writes (by decide),
      mem_writes (by decide), mem_writes (by decide), mem_writes (by decide), mem_writes (by decide),
      mem_writes (by decide), mem_writes (by decide), mem_writes (by decide)⟩ hr

theorem skip2 (r : Ref sig .tc)
    (hr : r ∉ [main_c_6, main_v27, main_v28, main_c_7, main_v29, main_v30, main_v31, main_v32, main_v33, main_v34,
      main_cst_8, main_v35, main_v36, main_v37, main_v38]) :
    after (hostOps2 (F := Ideal)) V (Proc.devRef .tc r) = V (Proc.devRef .tc r) :=
  after_of_writes_sub _ V
    ⟨mem_writes (by decide), mem_writes (by decide), mem_writes (by decide), mem_writes (by decide),
      mem_writes (by decide), mem_writes (by decide), mem_writes (by decide), mem_writes (by decide),
      mem_writes (by decide), mem_writes (by decide), mem_writes (by decide), mem_writes (by decide),
      mem_writes (by decide), mem_writes (by decide), mem_writes (by decide)⟩ hr

theorem skip3 (r : Ref sig .tc)
    (hr : r ∉ [main_c_9, main_v40, main_v41, main_c_10, main_v42, main_v43, main_v44, main_v45, main_v46, main_v47,
      main_cst_11, main_v48, main_v49, main_v50, main_v51]) :
    after (hostOps3 (F := Ideal)) V (Proc.devRef .tc r) = V (Proc.devRef .tc r) :=
  after_of_writes_sub _ V
    ⟨mem_writes (by decide), mem_writes (by decide), mem_writes (by decide), mem_writes (by decide),
      mem_writes (by decide), mem_writes (by decide), mem_writes (by decide), mem_writes (by decide),
      mem_writes (by decide), mem_writes (by decide), mem_writes (by decide), mem_writes (by decide),
      mem_writes (by decide), mem_writes (by decide), mem_writes (by decide)⟩ hr

/-! ## What each stretch computes, from any contents V

Each result below is read off the stretch operation by operation: an operation's result buffer holds its function of
its operand buffers, and an operand buffer holds either an earlier operation's result or, if the stretch has not
written it, what V holds there.  What is left mentions V only at the buffers the stretch reads from outside. -/

/-- The vector of ones, one per edge. -/
theorem ones_after0 :
    after (hostOps0 (F := Ideal)) V (Proc.devRef .tc main_v0)
      = (broadcastInDim S800000 ![] bcast_S_S800000 (constant S_ .f32 0x3F800000#32) : FVec Ideal S800000 .f32) := by
  simp only [hostOps0]; after_results

/-- The scalar one the clip of the source count is handed. -/
theorem one_after0 :
    after (hostOps0 (F := Ideal)) V (Proc.devRef .tc main_cst_1) = (constant S_ .f32 0x3F800000#32 : FVec Ideal S_ .f32) := by
  simp only [hostOps0]; after_results

/-- The source count: ones added into a vector of zeros at each edge's source. -/
theorem deg_after0 :
    after (hostOps0 (F := Ideal)) V (Proc.devRef .tc main_v3)
      = (Host.scatterAdd scatter_S100000_S800000x1_S800000_n_0_0_1
          (broadcastInDim S100000 ![] bcast_S_S100000 (constant S_ .f32 0x00000000#32))
          (broadcastInDim S800000x1 ![0] bcast_S800000_S800000x1_0 (V (Proc.devRef .tc main_arg7)))
          (broadcastInDim S800000 ![] bcast_S_S800000 (constant S_ .f32 0x3F800000#32)) : FVec Ideal S100000 .f32) := by
  simp only [hostOps0]; after_results

/-- The clip: the larger of the count and the scalar it is handed, broadcast over the nodes. -/
theorem clip_after0_1 :
    after (hostOps0_1 (F := Ideal)) V (Proc.devRef .tc main_v4)
      = (maximumf (broadcastInDim S100000 ![] bcast_S_S100000 (id (V (Proc.devRef .tc main_cst_1))))
          (V (Proc.devRef .tc main_v3)) : FVec Ideal S100000 .f32) := by
  simp only [hostOps0_1]; after_results; rfl

/-- The scalar one the clip of the destination count is handed. -/
theorem one_after0_2 :
    after (hostOps0_2 (F := Ideal)) V (Proc.devRef .tc main_cst_3) = (constant S_ .f32 0x3F800000#32 : FVec Ideal S_ .f32) := by
  simp only [hostOps0_2]; after_results

/-- The destination count: the ones (made by the first stretch, read here from outside) added into zeros at each
    edge's destination. -/
theorem deg_after0_2 :
    after (hostOps0_2 (F := Ideal)) V (Proc.devRef .tc main_v7)
      = (Host.scatterAdd scatter_S100000_S800000x1_S800000_n_0_0_1
          (broadcastInDim S100000 ![] bcast_S_S100000 (constant S_ .f32 0x00000000#32))
          (broadcastInDim S800000x1 ![0] bcast_S800000_S800000x1_0 (V (Proc.devRef .tc main_arg8)))
          (V (Proc.devRef .tc main_v0)) : FVec Ideal S100000 .f32) := by
  simp only [hostOps0_2]; after_results

/-- The clip of the destination count. -/
theorem clip_after0_3 :
    after (hostOps0_3 (F := Ideal)) V (Proc.devRef .tc main_v8)
      = (maximumf (broadcastInDim S100000 ![] bcast_S_S100000 (id (V (Proc.devRef .tc main_cst_3))))
          (V (Proc.devRef .tc main_v7)) : FVec Ideal S100000 .f32) := by
  simp only [hostOps0_3]; after_results; rfl

/-- The source-side column: the inverse square root of the clipped source count, reshaped to a column. -/
theorem col_after0_4_v11 :
    after (hostOps0_4 (F := Ideal)) V (Proc.devRef .tc main_v11)
      = Cert.KVal.column (Host.rsqrt (V (Proc.devRef .tc main_v4))) := by
  simp only [hostOps0_4]; after_results; rfl

/-- The destination-side column. -/
theorem col_after0_4_v12 :
    after (hostOps0_4 (F := Ideal)) V (Proc.devRef .tc main_v12)
      = Cert.KVal.column (Host.rsqrt (V (Proc.devRef .tc main_v8))) := by
  simp only [hostOps0_4]; after_results; rfl

/-- Before the second call: the first call's output gathered at the wrapped sources, widened, and summed into the
    destinations; it reads the first call's output and the edges' sources and destinations. -/
theorem agg_after1 :
    after (hostOps1 (F := Ideal)) V (Proc.devRef .tc main_v24)
      = Cert.KVal.agg256 (V (Proc.devRef .tc main_v13)) (V (Proc.devRef .tc main_arg7)) (V (Proc.devRef .tc main_arg8)) := by
  simp only [hostOps1]; after_results_simp; rfl

/-- The first bias as a row. -/
theorem bias_after1 :
    after (hostOps1 (F := Ideal)) V (Proc.devRef .tc main_v25)
      = (shapeCast S1x128 (V (Proc.devRef .tc main_arg2)) shapeCasts_S128_S1x128 : FVec Ideal S1x128 .f32) := by
  simp only [hostOps1]; after_results_simp; rfl

/-- Before the third call: the same over the second call's 128-wide output. -/
theorem agg_after2 :
    after (hostOps2 (F := Ideal)) V (Proc.devRef .tc main_v37)
      = Cert.KVal.agg128 (V (Proc.devRef .tc main_v26)) (V (Proc.devRef .tc main_arg7)) (V (Proc.devRef .tc main_arg8)) := by
  simp only [hostOps2]; after_results_simp; rfl

/-- The second bias as a row. -/
theorem bias_after2 :
    after (hostOps2 (F := Ideal)) V (Proc.devRef .tc main_v38)
      = (shapeCast S1x128 (V (Proc.devRef .tc main_arg4)) shapeCasts_S128_S1x128 : FVec Ideal S1x128 .f32) := by
  simp only [hostOps2]; after_results_simp; rfl

/-- Before the last call: the same over the third call's output. -/
theorem agg_after3 :
    after (hostOps3 (F := Ideal)) V (Proc.devRef .tc main_v50)
      = Cert.KVal.agg128 (V (Proc.devRef .tc main_v39)) (V (Proc.devRef .tc main_arg7)) (V (Proc.devRef .tc main_arg8)) := by
  simp only [hostOps3]; after_results_simp; rfl

/-- The third bias as a row. -/
theorem bias_after3 :
    after (hostOps3 (F := Ideal)) V (Proc.devRef .tc main_v51)
      = (shapeCast S1x64 (V (Proc.devRef .tc main_arg6)) shapeCasts_S64_S1x64 : FVec Ideal S1x64 .f32) := by
  simp only [hostOps3]; after_results_simp; rfl

/-! ## The two normalisation columns, through the five stretches before the first call

The source-side column: the count of the edges' sources per node (a scatter-add of ones into zeros), clipped below
at one, its inverse square root, as a column.  The destination-side column is the same over the edges'
destinations; its scatter-add reuses the vector of ones the first stretch made. -/

/-- The source-side column after all five stretches: the clipped count is made by the second stretch and not written
    by the third and fourth; its two inputs are the first stretch's. -/
theorem norm_src :
    after (hostOps0_4 (F := Ideal)) (after hostOps0_3 (after hostOps0_2 (after hostOps0_1 (after hostOps0 V))))
        (Proc.devRef .tc main_v11)
      = Cert.KVal.column (Cert.KVal.invSqrtDeg (V (Proc.devRef .tc main_arg7))) := by
  refine (col_after0_4_v11 _).trans ?_
  rw [skip0_3 _ main_v4 (by decide), skip0_2 _ main_v4 (by decide), clip_after0_1, one_after0, deg_after0]
  rfl

/-- The destination-side column after all five stretches: the edges' destinations and the vector of ones pass the
    first two stretches (the ones are made by the first) into the third stretch's count. -/
theorem norm_dst :
    after (hostOps0_4 (F := Ideal)) (after hostOps0_3 (after hostOps0_2 (after hostOps0_1 (after hostOps0 V))))
        (Proc.devRef .tc main_v12)
      = Cert.KVal.column (Cert.KVal.invSqrtDeg (V (Proc.devRef .tc main_arg8))) := by
  refine (col_after0_4_v12 _).trans ?_
  rw [clip_after0_3, one_after0_2, deg_after0_2, skip0_1 _ main_arg8 (by decide), skip0 _ main_arg8 (by decide),
    skip0_1 _ main_v0 (by decide), ones_after0]
  rfl

/-- A buffer none of the five stretches writes holds after them what it held before. -/
theorem skip_norms (r : Ref sig .tc)
    (h0 : r ∉ [main_cst, main_v0, main_cst_0, main_v1, main_v2, main_v3, main_cst_1])
    (h1 : r ∉ [main_call0_v0, main_call0_v1, main_v4])
    (h2 : r ∉ [main_cst_2, main_v5, main_v6, main_v7, main_cst_3])
    (h3 : r ∉ [main_call1_v0, main_call1_v1, main_v8])
    (h4 : r ∉ [main_v9, main_v10, main_v11, main_v12]) :
    after (hostOps0_4 (F := Ideal)) (after hostOps0_3 (after hostOps0_2 (after hostOps0_1 (after hostOps0 V))))
        (Proc.devRef .tc r)
      = V (Proc.devRef .tc r) :=
  (skip0_4 _ r h4).trans ((skip0_3 _ r h3).trans ((skip0_2 _ r h2).trans ((skip0_1 _ r h1).trans (skip0 _ r h0))))

end Cert.KFold

end
-- ==== Proof.Fold.lean ====
/-
  The kernel program's result buffer at the end of the run, as one array-level function of the nine argument arrays.

  The run is a fold of buffer contents: from the launch memory through five stretches of host operations (the two
  normalisation columns), the first call (the features x, each row scaled by the source-side column), and then three
  times a stretch of host operations (gather along the edges' sources, sum into the edges' destinations, the bias as a
  row) followed by a call (scale the sum's rows by the destination-side column, multiply by the weights, add the
  bias; the first two of these calls also take the positive part and scale the rows for the next gather).

  What a call leaves in its output array is assumed here as a whole-array function of what the call found in its
  input arrays (the four hypotheses F0 … F3).  What a stretch of host operations leaves is read off the operations
  (FoldHost.lean).  The walk below goes boundary by boundary: at each boundary it records what every buffer that is
  still needed holds, in terms of the launch contents of the arguments

      𝐱 (features), 𝐖₁ 𝐛₁ 𝐖₂ 𝐛₂ 𝐖₃ 𝐛₃ (weights and biases), 𝐬 𝐝 (the edges' sources and destinations).

  A buffer passes a boundary unchanged for one of three reasons: a stretch of host operations does not write it; a
  call's arrays do not include it; or a call reads it through an input window, and an input array is left as found.
-/
import proofs.«152339_j21388937134410_2_alg».proof.Proof.Gen.KernelIdeal.Frame
import proofs.«152339_j21388937134410_2_alg».proof.Proof.KVal
import proofs.«152339_j21388937134410_2_alg».proof.Proof.FoldHost
import Idealize.ShloMosaic.Lib.StableHlo.Run

set_option maxRecDepth 16384

noncomputable section

namespace Cert.KFold

open Cert.KernelIdeal Cert.KernelIdeal.Gen Idealize.ShloMosaic Idealize.ShloMosaic.TcCoe Idealize.SL.Sem Idealize.ShloMosaic.StableHlo

/-! ## Equal layers from equal parts -/

theorem linear_congr {a k d : ℕ} {A A' : (⟨2, ![a, k]⟩ : Shape).Idx → EReal} {s s' : (⟨2, ![a, 1]⟩ : Shape).Idx → EReal}
    {w w' : (⟨2, ![k, d]⟩ : Shape).Idx → EReal} {b b' : (⟨2, ![1, d]⟩ : Shape).Idx → EReal}
    (hA : A = A') (hs : s = s') (hw : w = w') (hb : b = b') :
    Cert.Spec.linear A s w b = Cert.Spec.linear A' s' w' b' := by
  rw [hA, hs, hw, hb]

theorem layer_congr {a k d : ℕ} {A A' : (⟨2, ![a, k]⟩ : Shape).Idx → EReal} {s s' t t' : (⟨2, ![a, 1]⟩ : Shape).Idx → EReal}
    {w w' : (⟨2, ![k, d]⟩ : Shape).Idx → EReal} {b b' : (⟨2, ![1, d]⟩ : Shape).Idx → EReal}
    (hA : A = A') (hs : s = s') (hw : w = w') (hb : b = b') (ht : t = t') :
    Cert.Spec.rowScale (Cert.Spec.relu (Cert.Spec.linear A s w b)) t
      = Cert.Spec.rowScale (Cert.Spec.relu (Cert.Spec.linear A' s' w' b')) t' := by
  rw [hA, hs, hw, hb, ht]

/-! ## What the four calls are assumed to leave

Each call's output array, at the call's exit, as a whole-array function of what the call found in its input arrays
(V: the buffer contents at the call's entry). -/

/-- The first call: the features, every row scaled by that row's entry of the source-side column. -/
abbrev Call0 : Prop :=
  ∀ (V : (c : Dev nD) → (b : Ref sig .tc) → Buf (Elt Ideal) ((c : Thread nD τ).loc b)) (c : Dev nD),
    (dat0 (F := Ideal) V c).arrAt 2 cfg0.N = Cert.Spec.rowScale (V c main_arg0) (V c main_v11)

/-- The second call: the summed features' rows scaled by the destination-side column, times the weights, plus the
    bias row; then the positive part, and the rows scaled by the source-side column for the next gather. -/
abbrev Call1 : Prop :=
  ∀ (V : (c : Dev nD) → (b : Ref sig .tc) → Buf (Elt Ideal) ((c : Thread nD τ).loc b)) (c : Dev nD),
    (dat1 (F := Ideal) V c).arrAt 5 cfg1.N
      = Cert.Spec.rowScale (Cert.Spec.relu (Cert.Spec.linear (V c main_v24) (V c main_v12) (V c main_arg1) (V c main_v25))) (V c main_v11)

/-- The third call: the same layer over its own inputs. -/
abbrev Call2 : Prop :=
  ∀ (V : (c : Dev nD) → (b : Ref sig .tc) → Buf (Elt Ideal) ((c : Thread nD τ).loc b)) (c : Dev nD),
    (dat2 (F := Ideal) V c).arrAt 5 cfg2.N
      = Cert.Spec.rowScale (Cert.Spec.relu (Cert.Spec.linear (V c main_v37) (V c main_v12) (V c main_arg3) (V c main_v38))) (V c main_v11)

/-- The last call: the layer alone, with neither the positive part nor the scaling for a next gather. -/
abbrev Call3 : Prop :=
  ∀ (V : (c : Dev nD) → (b : Ref sig .tc) → Buf (Elt Ideal) ((c : Thread nD τ).loc b)) (c : Dev nD),
    (dat3 (F := Ideal) V c).arrAt 4 cfg3.N
      = Cert.Spec.linear (V c main_v50) (V c main_v12) (V c main_arg5) (V c main_v51)

variable (F0 : Call0) (F1 : Call1) (F2 : Call2) (F3 : Call3)

variable (m : (ℓ : Loc nD τ sig) → Buf (Elt Ideal) ℓ) (ρ : Dev nD → PrngReg) (c : Dev nD)

set_option quotPrecheck false
local notation "𝐱" => m ((c : Thread nD τ).loc main_arg0)
local notation "𝐖₁" => m ((c : Thread nD τ).loc main_arg1)
local notation "𝐛₁" => m ((c : Thread nD τ).loc main_arg2)
local notation "𝐖₂" => m ((c : Thread nD τ).loc main_arg3)
local notation "𝐛₂" => m ((c : Thread nD τ).loc main_arg4)
local notation "𝐖₃" => m ((c : Thread nD τ).loc main_arg5)
local notation "𝐛₃" => m ((c : Thread nD τ).loc main_arg6)
local notation "𝐬" => m ((c : Thread nD τ).loc main_arg7)
local notation "𝐝" => m ((c : Thread nD τ).loc main_arg8)
set_option quotPrecheck true

/-! ## Buffers that pass unchanged

A reference r that is the result of no host operation before the first call holds at the first call's entry its
launch contents.  From there it passes each further boundary as long as no call has it among its arrays and no
stretch writes it; the lemmas below extend "r holds x" from the first call's entry to each later boundary, each
from the one before. -/

/-- At the first call's entry a buffer no host operation has written holds its launch contents. -/
theorem W5_launch (r : Ref sig .tc)
    (h0 : r ∉ [main_cst, main_v0, main_cst_0, main_v1, main_v2, main_v3, main_cst_1])
    (h1 : r ∉ [main_call0_v0, main_call0_v1, main_v4])
    (h2 : r ∉ [main_cst_2, main_v5, main_v6, main_v7, main_cst_3])
    (h3 : r ∉ [main_call1_v0, main_call1_v1, main_v8])
    (h4 : r ∉ [main_v9, main_v10, main_v11, main_v12]) :
    W5 (F := Ideal) m ρ c (Proc.devRef .tc r) = m ((c : Thread nD τ).loc r) :=
  skip_norms (W0 m ρ c) r h0 h1 h2 h3 h4

section Pass

variable (r : Ref sig .tc) {x : (Proc.devRef (τ := τ) .tc r).ty.Contents (Elt Ideal)}

/-- Past the first call. -/
theorem W6_of_W5 (h0 : ∀ w, Pipeline.arrRef spec0 w ≠ r) (e : W5 (F := Ideal) m ρ c (Proc.devRef .tc r) = x) :
    W6 (F := Ideal) m ρ c (Proc.devRef .tc r) = x :=
  (W6_of_ne m ρ c r h0).trans e

/-- Past the host operations before the second call. -/
theorem W7_of_W5 (h0 : ∀ w, Pipeline.arrRef spec0 w ≠ r)
    (h1 : r ∉ [main_c, main_v14, main_v15, main_c_4, main_v16, main_v17, main_v18, main_v19, main_v20, main_v21,
      main_cst_5, main_v22, main_v23, main_v24, main_v25])
    (e : W5 (F := Ideal) m ρ c (Proc.devRef .tc r) = x) :
    W7 (F := Ideal) m ρ c (Proc.devRef .tc r) = x :=
  (skip1 _ r h1).trans (W6_of_W5 m ρ c r h0 e)

/-- Past the second call. -/
theorem W8_of_W5 (h0 : ∀ w, Pipeline.arrRef spec0 w ≠ r)
    (h1 : r ∉ [main_c, main_v14, main_v15, main_c_4, main_v16, main_v17, main_v18, main_v19, main_v20, main_v21,
      main_cst_5, main_v22, main_v23, main_v24, main_v25])
    (h2 : ∀ w, Pipeline.arrRef spec1 w ≠ r)
    (e : W5 (F := Ideal) m ρ c (Proc.devRef .tc r) = x) :
    W8 (F := Ideal) m ρ c (Proc.devRef .tc r) = x :=
  (W8_of_ne m ρ c r h2).trans (W7_of_W5 m ρ c r h0 h1 e)

/-- Past the host operations before the third call. -/
theorem W9_of_W5 (h0 : ∀ w, Pipeline.arrRef spec0 w ≠ r)
    (h1 : r ∉ [main_c, main_v14, main_v15, main_c_4, main_v16, main_v17, main_v18, main_v19, main_v20, main_v21,
      main_cst_5, main_v22, main_v23, main_v24, main_v25])
    (h2 : ∀ w, Pipeline.arrRef spec1 w ≠ r)
    (h3 : r ∉ [main_c_6, main_v27, main_v28, main_c_7, main_v29, main_v30, main_v31, main_v32, main_v33, main_v34,
      main_cst_8, main_v35, main_v36, main_v37, main_v38])
    (e : W5 (F := Ideal) m ρ c (Proc.devRef .tc r) = x) :
    W9 (F := Ideal) m ρ c (Proc.devRef .tc r) = x :=
  (skip2 _ r h3).trans (W8_of_W5 m ρ c r h0 h1 h2 e)

/-- Past the third call. -/
theorem W10_of_W5 (h0 : ∀ w, Pipeline.arrRef spec0 w ≠ r)
    (h1 : r ∉ [main_c, main_v14, main_v15, main_c_4, main_v16, main_v17, main_v18, main_v19, main_v20, main_v21,
      main_cst_5, main_v22, main_v23, main_v24, main_v25])
    (h2 : ∀ w, Pipeline.arrRef spec1 w ≠ r)
    (h3 : r ∉ [main_c_6, main_v27, main_v28, main_c_7, main_v29, main_v30, main_v31, main_v32, main_v33, main_v34,
      main_cst_8, main_v35, main_v36, main_v37, main_v38])
    (h4 : ∀ w, Pipeline.arrRef spec2 w ≠ r)
    (e : W5 (F := Ideal) m ρ c (Proc.devRef .tc r) = x) :
    W10 (F := Ideal) m ρ c (Proc.devRef .tc r) = x :=
  (W10_of_ne m ρ c r h4).trans (W9_of_W5 m ρ c r h0 h1 h2 h3 e)

/-- Past the host operations before the last call. -/
theorem W11_of_W5 (h0 : ∀ w, Pipeline.arrRef spec0 w ≠ r)
    (h1 : r ∉ [main_c, main_v14, main_v15, main_c_4, main_v16, main_v17, main_v18, main_v19, main_v20, main_v21,
      main_cst_5, main_v22, main_v23, main_v24, main_v25])
    (h2 : ∀ w, Pipeline.arrRef spec1 w ≠ r)
    (h3 : r ∉ [main_c_6, main_v27, main_v28, main_c_7, main_v29, main_v30, main_v31, main_v32, main_v33, main_v34,
      main_cst_8, main_v35, main_v36, main_v37, main_v38])
    (h4 : ∀ w, Pipeline.arrRef spec2 w ≠ r)
    (h5 : r ∉ [main_c_9, main_v40, main_v41, main_c_10, main_v42, main_v43, main_v44, main_v45, main_v46, main_v47,
      main_cst_11, main_v48, main_v49, main_v50, main_v51])
    (e : W5 (F := Ideal) m ρ c (Proc.devRef .tc r) = x) :
    W11 (F := Ideal) m ρ c (Proc.devRef .tc r) = x :=
  (skip3 _ r h5).trans (W10_of_W5 m ρ c r h0 h1 h2 h3 h4 e)

end Pass

/-! ## The arguments, where they are read

The features are read by the first call; the edges' sources and destinations by the host operations before each
later call; each weight matrix by its call, and each bias by the host operations before its call. -/

theorem W5_x : W5 (F := Ideal) m ρ c (Proc.devRef .tc main_arg0) = 𝐱 :=
  W5_launch m ρ c main_arg0 (by decide) (by decide) (by decide) (by decide) (by decide)

theorem W5_src : W5 (F := Ideal) m ρ c (Proc.devRef .tc main_arg7) = 𝐬 :=
  W5_launch m ρ c main_arg7 (by decide) (by decide) (by decide) (by decide) (by decide)

theorem W5_dst : W5 (F := Ideal) m ρ c (Proc.devRef .tc main_arg8) = 𝐝 :=
  W5_launch m ρ c main_arg8 (by decide) (by decide) (by decide) (by decide) (by decide)

theorem W6_src : W6 (F := Ideal) m ρ c (Proc.devRef .tc main_arg7) = 𝐬 :=
  W6_of_W5 m ρ c main_arg7 (by decide) (W5_src m ρ c)

theorem W6_dst : W6 (F := Ideal) m ρ c (Proc.devRef .tc main_arg8) = 𝐝 :=
  W6_of_W5 m ρ c main_arg8 (by decide) (W5_dst m ρ c)

theorem W8_src : W8 (F := Ideal) m ρ c (Proc.devRef .tc main_arg7) = 𝐬 :=
  W8_of_W5 m ρ c main_arg7 (by decide) (by decide) (by decide) (W5_src m ρ c)

theorem W8_dst : W8 (F := Ideal) m ρ c (Proc.devRef .tc main_arg8) = 𝐝 :=
  W8_of_W5 m ρ c main_arg8 (by decide) (by decide) (by decide) (W5_dst m ρ c)

theorem W10_src : W10 (F := Ideal) m ρ c (Proc.devRef .tc main_arg7) = 𝐬 :=
  W10_of_W5 m ρ c main_arg7 (by decide) (by decide) (by decide) (by decide) (by decide) (W5_src m ρ c)

theorem W10_dst : W10 (F := Ideal) m ρ c (Proc.devRef .tc main_arg8) = 𝐝 :=
  W10_of_W5 m ρ c main_arg8 (by decide) (by decide) (by decide) (by decide) (by decide) (W5_dst m ρ c)

theorem W7_W1 : W7 (F := Ideal) m ρ c (Proc.devRef .tc main_arg1) = 𝐖₁ :=
  W7_of_W5 m ρ c main_arg1 (by decide) (by decide)
    (W5_launch m ρ c main_arg1 (by decide) (by decide) (by decide) (by decide) (by decide))

theorem W6_b1 : W6 (F := Ideal) m ρ c (Proc.devRef .tc main_arg2) = 𝐛₁ :=
  W6_of_W5 m ρ c main_arg2 (by decide)
    (W5_launch m ρ c main_arg2 (by decide) (by decide) (by decide) (by decide) (by decide))

theorem W9_W2 : W9 (F := Ideal) m ρ c (Proc.devRef .tc main_arg3) = 𝐖₂ :=
  W9_of_W5 m ρ c main_arg3 (by decide) (by decide) (by decide) (by decide)
    (W5_launch m ρ c main_arg3 (by decide) (by decide) (by decide) (by decide) (by decide))

theorem W8_b2 : W8 (F := Ideal) m ρ c (Proc.devRef .tc main_arg4) = 𝐛₂ :=
  W8_of_W5 m ρ c main_arg4 (by decide) (by decide) (by decide)
    (W5_launch m ρ c main_arg4 (by decide) (by decide) (by decide) (by decide) (by decide))

theorem W11_W3 : W11 (F := Ideal) m ρ c (Proc.devRef .tc main_arg5) = 𝐖₃ :=
  W11_of_W5 m ρ c main_arg5 (by decide) (by decide) (by decide) (by decide) (by decide) (by decide)
    (W5_launch m ρ c main_arg5 (by decide) (by decide) (by decide) (by decide) (by decide))

theorem W10_b3 : W10 (F := Ideal) m ρ c (Proc.devRef .tc main_arg6) = 𝐛₃ :=
  W10_of_W5 m ρ c main_arg6 (by decide) (by decide) (by decide) (by decide) (by decide)
    (W5_launch m ρ c main_arg6 (by decide) (by decide) (by decide) (by decide) (by decide))

/-! ## The biases as rows -/

theorem W7_bias : W7 (F := Ideal) m ρ c (Proc.devRef .tc main_v25) = shapeCast S1x128 𝐛₁ shapeCasts_S128_S1x128 :=
  (bias_after1 (W6 m ρ c)).trans (by rw [W6_b1 m ρ c])

theorem W9_bias : W9 (F := Ideal) m ρ c (Proc.devRef .tc main_v38) = shapeCast S1x128 𝐛₂ shapeCasts_S128_S1x128 :=
  (bias_after2 (W8 m ρ c)).trans (by rw [W8_b2 m ρ c])

theorem W11_bias : W11 (F := Ideal) m ρ c (Proc.devRef .tc main_v51) = shapeCast S1x64 𝐛₃ shapeCasts_S64_S1x64 :=
  (bias_after3 (W10 m ρ c)).trans (by rw [W10_b3 m ρ c])

/-! ## The two normalisation columns, where they are read

The source-side column is read by the first three calls (each scales rows by it); the destination-side column by
the last three.  Both are made before the first call and never written again: a call that reads one through an
input window leaves it as found. -/

theorem W5_colS : W5 (F := Ideal) m ρ c (Proc.devRef .tc main_v11) = Cert.KVal.column (Cert.KVal.invSqrtDeg 𝐬) :=
  norm_src (W0 m ρ c)

theorem W5_colD : W5 (F := Ideal) m ρ c (Proc.devRef .tc main_v12) = Cert.KVal.column (Cert.KVal.invSqrtDeg 𝐝) :=
  norm_dst (W0 m ρ c)

theorem W7_colS : W7 (F := Ideal) m ρ c (Proc.devRef .tc main_v11) = Cert.KVal.column (Cert.KVal.invSqrtDeg 𝐬) :=
  (skip1 _ main_v11 (by decide)).trans
    ((W6_arr m ρ c 1).trans (((dat0 (V5 m ρ) c).arrAt_in 1 rfl _).trans ((A_eq0 (V5 m ρ) c 1).trans (W5_colS m ρ c))))

theorem W7_colD : W7 (F := Ideal) m ρ c (Proc.devRef .tc main_v12) = Cert.KVal.column (Cert.KVal.invSqrtDeg 𝐝) :=
  W7_of_W5 m ρ c main_v12 (by decide) (by decide) (W5_colD m ρ c)

theorem W9_colS : W9 (F := Ideal) m ρ c (Proc.devRef .tc main_v11) = Cert.KVal.column (Cert.KVal.invSqrtDeg 𝐬) :=
  (skip2 _ main_v11 (by decide)).trans
    ((W8_arr m ρ c 2).trans (((dat1 (V7 m ρ) c).arrAt_in 2 rfl _).trans ((A_eq1 (V7 m ρ) c 2).trans (W7_colS m ρ c))))

theorem W9_colD : W9 (F := Ideal) m ρ c (Proc.devRef .tc main_v12) = Cert.KVal.column (Cert.KVal.invSqrtDeg 𝐝) :=
  (skip2 _ main_v12 (by decide)).trans
    ((W8_arr m ρ c 1).trans (((dat1 (V7 m ρ) c).arrAt_in 1 rfl _).trans ((A_eq1 (V7 m ρ) c 1).trans (W7_colD m ρ c))))

theorem W11_colD : W11 (F := Ideal) m ρ c (Proc.devRef .tc main_v12) = Cert.KVal.column (Cert.KVal.invSqrtDeg 𝐝) :=
  (skip3 _ main_v12 (by decide)).trans
    ((W10_arr m ρ c 1).trans (((dat2 (V9 m ρ) c).arrAt_in 1 rfl _).trans ((A_eq2 (V9 m ρ) c 1).trans (W9_colD m ρ c))))

/-! ## The features, call by call

Each call's output is the assumed function of its inputs' contents at entry, and those contents are known from the
boundary before; each stretch's sum over the edges is the composed host function of the previous call's output. -/

include F0

/-- After the first call: the features, row p scaled by the source-side factor of node p. -/
theorem W6_h0 : W6 (F := Ideal) m ρ c (Proc.devRef .tc main_v13) = Cert.KVal.h0 𝐱 𝐬 :=
  (W6_arr m ρ c 2).trans ((F0 (V5 m ρ) c).trans (congrArg₂ Cert.Spec.rowScale (W5_x m ρ c) (W5_colS m ρ c)))

/-- At the second call's entry: those features gathered along the edges and summed into the destinations. -/
theorem W7_agg : W7 (F := Ideal) m ρ c (Proc.devRef .tc main_v24) = Cert.KVal.agg256 (Cert.KVal.h0 𝐱 𝐬) 𝐬 𝐝 :=
  (agg_after1 (W6 m ρ c)).trans (by rw [W6_h0 F0 m ρ c, W6_src m ρ c, W6_dst m ρ c])

include F1

/-- After the second call: the first layer's output, scaled for the next gather. -/
theorem W8_h1 : W8 (F := Ideal) m ρ c (Proc.devRef .tc main_v26) = Cert.KVal.h1 𝐱 𝐖₁ 𝐛₁ 𝐬 𝐝 :=
  (W8_arr m ρ c 5).trans ((F1 (V7 m ρ) c).trans
    (layer_congr (W7_agg F0 m ρ c) (W7_colD m ρ c) (W7_W1 m ρ c) (W7_bias m ρ c) (W7_colS m ρ c)))

/-- At the third call's entry. -/
theorem W9_agg : W9 (F := Ideal) m ρ c (Proc.devRef .tc main_v37) = Cert.KVal.agg128 (Cert.KVal.h1 𝐱 𝐖₁ 𝐛₁ 𝐬 𝐝) 𝐬 𝐝 :=
  (agg_after2 (W8 m ρ c)).trans (by rw [W8_h1 F0 F1 m ρ c, W8_src m ρ c, W8_dst m ρ c])

include F2

/-- After the third call: the second layer's output, scaled likewise. -/
theorem W10_h2 : W10 (F := Ideal) m ρ c (Proc.devRef .tc main_v39) = Cert.KVal.h2 𝐱 𝐖₁ 𝐛₁ 𝐖₂ 𝐛₂ 𝐬 𝐝 :=
  (W10_arr m ρ c 5).trans ((F2 (V9 m ρ) c).trans
    (layer_congr (W9_agg F0 F1 m ρ c) (W9_colD m ρ c) (W9_W2 m ρ c) (W9_bias m ρ c) (W9_colS m ρ c)))

/-- At the last call's entry. -/
theorem W11_agg :
    W11 (F := Ideal) m ρ c (Proc.devRef .tc main_v50) = Cert.KVal.agg128 (Cert.KVal.h2 𝐱 𝐖₁ 𝐛₁ 𝐖₂ 𝐛₂ 𝐬 𝐝) 𝐬 𝐝 :=
  (agg_after3 (W10 m ρ c)).trans (by rw [W10_h2 F0 F1 F2 m ρ c, W10_src m ρ c, W10_dst m ρ c])

include F3

/-- The result buffer at the end of the run: the third layer over the launch contents of the nine arguments. -/
theorem result_eq :
    W12 (F := Ideal) m ρ c (Proc.devRef .tc main_v52)
      = Cert.KVal.h3 (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) :=
  (W12_arr m ρ c 4).trans ((F3 (V11 m ρ) c).trans
    (linear_congr (W11_agg F0 F1 F2 m ρ c) (W11_colD m ρ c) (W11_W3 m ρ c) (W11_bias m ρ c)))

end Cert.KFold

end
-- ==== Proof.RVal.lean ====
/-
  The reference program's result as layers of whole-array host operations.

  The reference computes each layer on the host: the messages along the edges are the gathered source rows
  times the gathered source-side factor (msg), they are summed into the edges' destinations (agg), the sums'
  rows are scaled by the destination-side factor (scaled), multiplied by the weights and shifted by the bias
  (lin1, lin2, lin3); between layers comes the positive part (relu128).  The definitions below spell exactly
  the operations the program applies, so that the program's result term is r3 of the arguments.
-/
import proofs.«152339_j21388937134410_2_alg».proof.ReferenceIdeal
import proofs.«152339_j21388937134410_2_alg».proof.Proof.Gen.ReferenceIdeal
import proofs.«152339_j21388937134410_2_alg».proof.Proof.Gen.ReferenceIdeal.Run
import Idealize.ShloMosaic.PureOps.Ideal

noncomputable section

namespace Cert.RVal

open Idealize.ShloMosaic Cert.ReferenceIdeal Cert.ReferenceIdeal.Facts₀ Cert.ReferenceIdeal.Facts

/-- An edge's endpoint as the host reads it: a negative index counts from the end, and the vector becomes a column. -/
def wrap (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 100000#32))) idx)

/-- The inverse square root of a node's degree over the endpoints idx, the degree taken at least one. -/
def invSqrtDeg (idx : IVec S800000 32) : FVec Ideal S100000 .f32 :=
  Host.rsqrt (maximumf (broadcastInDim S100000 ![] bcast_S_S100000 (id (constant S_ .f32 0x3F800000#32)))
    (Host.scatterAdd scatter_S100000_S800000x1_S800000_n_0_0_1
      (broadcastInDim S100000 ![] bcast_S_S100000 (constant S_ .f32 0x00000000#32))
      (broadcastInDim S800000x1 ![0] bcast_S800000_S800000x1_0 idx)
      (broadcastInDim S800000 ![] bcast_S_S800000 (constant S_ .f32 0x3F800000#32))))

/-- The messages of 256-wide features h: row e is h's row at edge e's source, times the source-side factor there. -/
def msg256 (h : FVec Ideal S100000x256 .f32) (src : IVec S800000 32) : FVec Ideal S800000x256 .f32 :=
  mulf (Host.gather gather_S100000x256_S800000x1_S800000x256_1_0_n_n_0_1_1256 h (wrap src))
    (broadcastInDim S800000x256 ![0, 1] bcast_S800000x1_S800000x256_0_1
      (broadcastInDim S800000x1 ![0] bcast_S800000_S800000x1_0
        (Host.gather gather_S100000_S800000x1_S800000_n_0_n_n_0_1_1 (invSqrtDeg src) (wrap src))))

/-- The same for 128-wide features. -/
def msg128 (h : FVec Ideal S100000x128 .f32) (src : IVec S800000 32) : FVec Ideal S800000x128 .f32 :=
  mulf (Host.gather gather_S100000x128_S800000x1_S800000x128_1_0_n_n_0_1_1128 h (wrap src))
    (broadcastInDim S800000x128 ![0, 1] bcast_S800000x1_S800000x128_0_1
      (broadcastInDim S800000x1 ![0] bcast_S800000_S800000x1_0
        (Host.gather gather_S100000_S800000x1_S800000_n_0_n_n_0_1_1 (invSqrtDeg src) (wrap src))))

/-- The messages summed into the edges' destinations. -/
def agg256 (h : FVec Ideal S100000x256 .f32) (src dst : IVec S800000 32) : FVec Ideal S100000x256 .f32 :=
  Host.scatterAdd scatter_S100000x256_S800000x1_S800000x256_1_0_0_1
    (broadcastInDim S100000x256 ![] bcast_S_S100000x256 (constant S_ .f32 0x00000000#32))
    (broadcastInDim S800000x1 ![0] bcast_S800000_S800000x1_0 dst) (msg256 h src)

def agg128 (h : FVec Ideal S100000x128 .f32) (src dst : IVec S800000 32) : FVec Ideal S100000x128 .f32 :=
  Host.scatterAdd scatter_S100000x128_S800000x1_S800000x128_1_0_0_1
    (broadcastInDim S100000x128 ![] bcast_S_S100000x128 (constant S_ .f32 0x00000000#32))
    (broadcastInDim S800000x1 ![0] bcast_S800000_S800000x1_0 dst) (msg128 h src)

/-- The sums with row p scaled by the destination-side factor of node p. -/
def scaled256 (h : FVec Ideal S100000x256 .f32) (src dst : IVec S800000 32) : FVec Ideal S100000x256 .f32 :=
  mulf (agg256 h src dst)
    (broadcastInDim S100000x256 ![0, 1] bcast_S100000x1_S100000x256_0_1
      (broadcastInDim S100000x1 ![0] bcast_S100000_S100000x1_0 (invSqrtDeg dst)))

def scaled128 (h : FVec Ideal S100000x128 .f32) (src dst : IVec S800000 32) : FVec Ideal S100000x128 .f32 :=
  mulf (agg128 h src dst)
    (broadcastInDim S100000x128 ![0, 1] bcast_S100000x1_S100000x128_0_1
      (broadcastInDim S100000x1 ![0] bcast_S100000_S100000x1_0 (invSqrtDeg dst)))

/-- The positive part of a 128-wide array, as the host takes it. -/
def relu128 (h : FVec Ideal S100000x128 .f32) : FVec Ideal S100000x128 .f32 :=
  maximumf h (broadcastInDim S100000x128 ![] bcast_S_S100000x128 (constant S_ .f32 0x00000000#32))

/-- The first layer before its positive part. -/
def lin1 (x : FVec Ideal S100000x256 .f32) (W1 : FVec Ideal S256x128 .f32) (b1 : FVec Ideal S128 .f32)
    (src dst : IVec S800000 32) : FVec Ideal S100000x128 .f32 :=
  addf (Host.dotGeneral dot_S100000x256_S256x128_S100000x128_1_0_0_1_n_n none (scaled256 x src dst) W1)
    (broadcastInDim S100000x128 ![0, 1] bcast_S1x128_S100000x128_0_1 (broadcastInDim S1x128 ![1] bcast_S128_S1x128_1 b1))

/-- The second layer before its positive part, from the first layer's output h. -/
def lin2 (h : FVec Ideal S100000x128 .f32) (W2 : FVec Ideal S128x128 .f32) (b2 : FVec Ideal S128 .f32)
    (src dst : IVec S800000 32) : FVec Ideal S100000x128 .f32 :=
  addf (Host.dotGeneral dot_S100000x128_S128x128_S100000x128_1_0_0_1_n_n none (scaled128 h src dst) W2)
    (broadcastInDim S100000x128 ![0, 1] bcast_S1x128_S100000x128_0_1 (broadcastInDim S1x128 ![1] bcast_S128_S1x128_1 b2))

/-- The third layer, from the second layer's output h. -/
def lin3 (h : FVec Ideal S100000x128 .f32) (W3 : FVec Ideal S128x64 .f32) (b3 : FVec Ideal S64 .f32)
    (src dst : IVec S800000 32) : FVec Ideal S100000x64 .f32 :=
  addf (Host.dotGeneral dot_S100000x128_S128x64_S100000x64_1_0_0_1_n_n none (scaled128 h src dst) W3)
    (broadcastInDim S100000x64 ![0, 1] bcast_S1x64_S100000x64_0_1 (broadcastInDim S1x64 ![1] bcast_S64_S1x64_1 b3))

/-- The three layers composed. -/
def r3 (x : FVec Ideal S100000x256 .f32) (W1 : FVec Ideal S256x128 .f32) (b1 : FVec Ideal S128 .f32)
    (W2 : FVec Ideal S128x128 .f32) (b2 : FVec Ideal S128 .f32) (W3 : FVec Ideal S128x64 .f32) (b3 : FVec Ideal S64 .f32)
    (src dst : IVec S800000 32) : FVec Ideal S100000x64 .f32 :=
  lin3 (relu128 (lin2 (relu128 (lin1 x W1 b1 src dst)) W2 b2 src dst)) W3 b3 src dst

open Idealize.ShloMosaic.TcCoe Idealize.SL.Sem in
/-- The reference program's result term is the three layers of its arguments: the definitions above unfold to it. -/
theorem res_eq (m : (ℓ : Loc nD τ sig) → Buf (Elt Ideal) ℓ) (c : Dev nD) :
    Cert.ReferenceIdeal.Value.res_main_v93 (F := Ideal) m c
      = r3 (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := rfl

end Cert.RVal

end
-- ==== Proof.LibVecColumn.lean ====
/-
  A vector as a column, two spellings, and a vector as a row. A vector v of length a becomes the column [a, 1] either by a reshape (a cast
  that keeps the row-major order) or by a broadcast that sends the vector's axis to the first axis of the column.
  Both read v(p) at the entry (p, 0), so they are the same array. This is the step between a per-row count reshaped to
  a column and the same count indexed with a new trailing axis. A vector of length b reshaped to the row [1, b] reads
  v(j) at (0, j): this is how a bias vector is handed to a kernel that adds it to every row of a block.
-/
import proofs.«152339_j21388937134410_2_alg».proof.Proof.LibColumn

noncomputable section

namespace Cert.LibVecColumn

open Idealize.ShloMosaic Idealize.ShloMosaic.ValueIdx

/-- The broadcast of a vector [a] along a new trailing unit axis reads, at (p, u), the vector at p: the vector's
    one axis is sent to the column's first axis, whose coordinate is p (and if a = 1 then p = 0 anyway). -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The reshape of a vector to a column and its broadcast along a new trailing axis are the same array. -/
theorem shapeCast_eq_broadcastInDim {α : Type} {a : ℕ} (x : (⟨1, ![a]⟩ : Shape).Idx → α)
    (h₁ : (⟨1, ![a]⟩ : Shape).ShapeCasts ⟨2, ![a, 1]⟩)
    (h₂ : (⟨1, ![a]⟩ : Shape).BroadcastsInDim ⟨2, ![a, 1]⟩ ![0]) :
    shapeCast ⟨2, ![a, 1]⟩ x h₁ = broadcastInDim ⟨2, ![a, 1]⟩ ![0] h₂ x := by
  funext i
  obtain ⟨p, u, rfl⟩ : ∃ (p : Fin a) (u : Fin 1), i = ix2 p u := ⟨i 0, i 1, eq_ix2 i⟩
  rw [Cert.LibColumn.shapeCast_a_a1_apply, broadcastInDim_a_a1_apply]

/-- A vector [b] cast to a row [1, b] reads, at (u, j), the vector at j: the row-major position of (u, j) in [1, b]
    is u · b + j with u = 0, the position j of the vector's entry. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibVecColumn

end
-- ==== Proof.LibRowVector.lean ====
/-
  A vector as a row, two spellings. A vector v of length b becomes the row [1, b] either by a reshape (a cast that
  keeps the row-major order) or by a broadcast that sends the vector's axis to the second axis of the row. Both
  read v(j) at the entry (0, j), so they are the same array. This is the step between a bias vector reshaped to a
  row for a kernel that adds it to every row of a block, and the same vector indexed with a new leading axis.
-/
import proofs.«152339_j21388937134410_2_alg».proof.Proof.LibVecColumn

noncomputable section

namespace Cert.LibRowVector

open Idealize.ShloMosaic Idealize.ShloMosaic.ValueIdx

/-- The broadcast of a vector [b] along a new leading unit axis reads, at (u, j), the vector at j: the vector's one
    axis is sent to the row's second axis, whose coordinate is j (and if b = 1 then j = 0 anyway). -/
theorem broadcastInDim_b_1b_apply {α : Type} {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The reshape of a vector to a row and its broadcast along a new leading axis are the same array. -/
theorem shapeCast_eq_broadcastInDim {α : Type} {b : ℕ} (x : (⟨1, ![b]⟩ : Shape).Idx → α)
    (h₁ : (⟨1, ![b]⟩ : Shape).ShapeCasts ⟨2, ![1, b]⟩)
    (h₂ : (⟨1, ![b]⟩ : Shape).BroadcastsInDim ⟨2, ![1, b]⟩ ![1]) :
    shapeCast ⟨2, ![1, b]⟩ x h₁ = broadcastInDim ⟨2, ![1, b]⟩ ![1] h₂ x := by
  funext i
  obtain ⟨u, j, rfl⟩ : ∃ (u : Fin 1) (j : Fin b), i = ix2 u j := ⟨i 0, i 1, eq_ix2 i⟩
  rw [Cert.LibVecColumn.shapeCast_b_1b_apply, broadcastInDim_b_1b_apply]

end Cert.LibRowVector

end
-- ==== Proof.LinearHost.lean ====
/-
  The layer functions as the reference program spells them.

  The reference computes a layer with whole-array host operations: it multiplies the aggregated features A : [N, K]
  by the destination-side factor v : [N] repeated along the K columns (v made a column, the column broadcast),
  takes the host's matrix product with the weights W : [K, D], and adds the bias b : [D] repeated along the N rows
  (b made a row, the row broadcast).  Entry (p, q) of that is Σ_κ (A(p, κ) · v(p)) · W(κ, q) + b(q), which is
  Spec.linear of the same arrays with v as a column and b as a row.  Likewise the reference's maximum with the
  broadcast zero word is Spec.relu.  Both are proved entry by entry, for all extents.
-/
import Idealize.ShloMosaic.PureOps.Ideal.Laws
import Idealize.ShloMosaic.Lib.ValueIdx
import Idealize.ShloMosaic.Lib.Pipeline.Value
import proofs.«152339_j21388937134410_2_alg».proof.Proof.Spec
import proofs.«152339_j21388937134410_2_alg».proof.Proof.LibPlainDot
import proofs.«152339_j21388937134410_2_alg».proof.Proof.LibColumn
import proofs.«152339_j21388937134410_2_alg».proof.Proof.LibVecColumn
import proofs.«152339_j21388937134410_2_alg».proof.Proof.LibRowVector

noncomputable section

namespace Cert.LinearHost

open Idealize.ShloMosaic Idealize.ShloMosaic.ValueIdx

variable {N K D : ℕ}

/-- A vector v over the rows, made a column and the column repeated along K columns, reads v(p) at (p, κ):
    the outer broadcast keeps the row and puts 0 on the column's one coordinate, the inner one keeps the row. -/
theorem colBroadcast_apply (v : (⟨1, ![N]⟩ : Shape).Idx → EReal)
    (hc1 : (⟨1, ![N]⟩ : Shape).BroadcastsInDim ⟨2, ![N, 1]⟩ ![0])
    (hc2 : (⟨2, ![N, 1]⟩ : Shape).BroadcastsInDim ⟨2, ![N, K]⟩ ![0, 1]) (p : Fin N) (κ : Fin K) :
    broadcastInDim ⟨2, ![N, K]⟩ ![0, 1] hc2 (broadcastInDim ⟨2, ![N, 1]⟩ ![0] hc1 v) (ix2 p κ) = v (ix1 p) := by
  refine (broadcastInDim_apply _ hc2 _ (ix2 p κ) (ix2 p (0 : Fin 1)) fun ax => ?_).trans
    (Cert.LibVecColumn.broadcastInDim_a_a1_apply v hc1 p 0)
  match ax with
  | ⟨0, _⟩ =>
    show p.val = if N = 1 then 0 else p.val
    split
    · have := p.isLt; omega
    · rfl
  | ⟨1, _⟩ => rfl

/-- A vector b over the columns, made a row and the row repeated along N rows, reads b(q) at (p, q). -/
theorem rowBroadcast_apply (b : (⟨1, ![D]⟩ : Shape).Idx → EReal)
    (hr1 : (⟨1, ![D]⟩ : Shape).BroadcastsInDim ⟨2, ![1, D]⟩ ![1])
    (hr2 : (⟨2, ![1, D]⟩ : Shape).BroadcastsInDim ⟨2, ![N, D]⟩ ![0, 1]) (p : Fin N) (q : Fin D) :
    broadcastInDim ⟨2, ![N, D]⟩ ![0, 1] hr2 (broadcastInDim ⟨2, ![1, D]⟩ ![1] hr1 b) (ix2 p q) = b (ix1 q) := by
  refine (broadcastInDim_apply _ hr2 _ (ix2 p q) (ix2 (0 : Fin 1) q) fun ax => ?_).trans
    (Cert.LibRowVector.broadcastInDim_b_1b_apply b hr1 0 q)
  match ax with
  | ⟨0, _⟩ => rfl
  | ⟨1, _⟩ =>
    show q.val = if D = 1 then 0 else q.val
    split
    · have := q.isLt; omega
    · rfl

/-- The reference's layer — scale the rows of A by v, multiply by W on the host, add b to every row — is
    Spec.linear of A, the column of v, W and the row of b: both are Σ_κ (A(p, κ) · v(p)) · W(κ, q) + b(q) at (p, q). -/
theorem linear_eq_host (prec : Option ContractPrecision)
    (A : FVec Ideal ⟨2, ![N, K]⟩ .f32) (v : FVec Ideal ⟨1, ![N]⟩ .f32) (W : FVec Ideal ⟨2, ![K, D]⟩ .f32)
    (b : FVec Ideal ⟨1, ![D]⟩ .f32)
    (h₁ : (⟨1, ![N]⟩ : Shape).ShapeCasts ⟨2, ![N, 1]⟩) (hb : (⟨1, ![D]⟩ : Shape).ShapeCasts ⟨2, ![1, D]⟩)
    (hc1 : (⟨1, ![N]⟩ : Shape).BroadcastsInDim ⟨2, ![N, 1]⟩ ![0])
    (hc2 : (⟨2, ![N, 1]⟩ : Shape).BroadcastsInDim ⟨2, ![N, K]⟩ ![0, 1])
    (hr1 : (⟨1, ![D]⟩ : Shape).BroadcastsInDim ⟨2, ![1, D]⟩ ![1])
    (hr2 : (⟨2, ![1, D]⟩ : Shape).BroadcastsInDim ⟨2, ![N, D]⟩ ![0, 1]) :
    Cert.Spec.linear A (shapeCast ⟨2, ![N, 1]⟩ v h₁) W (shapeCast ⟨2, ![1, D]⟩ b hb)
      = addf (F := Ideal) (φ := .f32)
          (Host.dotGeneral (DotDims.plain N K D) prec
            (mulf (F := Ideal) (φ := .f32) A
              (broadcastInDim ⟨2, ![N, K]⟩ ![0, 1] hc2 (broadcastInDim ⟨2, ![N, 1]⟩ ![0] hc1 v))) W)
          (broadcastInDim ⟨2, ![N, D]⟩ ![0, 1] hr2 (broadcastInDim ⟨2, ![1, D]⟩ ![1] hr1 b)) := by
  funext i
  obtain ⟨p, q, rfl⟩ : ∃ (p : Fin N) (q : Fin D), i = ix2 p q := ⟨i 0, i 1, eq_ix2 i⟩
  rw [Cert.Spec.linear_apply, addf_apply, rowBroadcast_apply, Cert.LibVecColumn.shapeCast_b_1b_apply]
  refine congrArg (· + b (ix1 q)) ?_
  refine Eq.trans ?_ (Cert.LibPlainDot.dotGeneral_apply prec .single _ W p q).symm
  refine Finset.sum_congr rfl fun κ _ => ?_
  rw [mulf_apply, colBroadcast_apply, Cert.LibColumn.shapeCast_a_a1_apply]

/-- The reference's positive part — the maximum with the zero word broadcast to every entry — is Spec.relu. -/
theorem relu_eq_host {a d : ℕ} (h : FVec Ideal ⟨2, ![a, d]⟩ .f32)
    (hz : (⟨0, ![]⟩ : Shape).BroadcastsInDim ⟨2, ![a, d]⟩ ![]) :
    Cert.Spec.relu h
      = maximumf (F := Ideal) (φ := .f32) h
          (broadcastInDim ⟨2, ![a, d]⟩ ![] hz (constant (F := Ideal) ⟨0, ![]⟩ .f32 0x00000000#32)) := by
  funext i
  rw [Cert.Spec.relu_apply, maximumf_apply]
  rfl

end Cert.LinearHost

end
-- ==== Proof.LibGatherEdge.lean ====
/-
  A gather of rows along a list of edge endpoints, read at one entry, general in the extents.

  Indexing a table with a vector of E row numbers, x[src], is a gather whose start indices are the column [E, 1]:
  the one component of start index e names a row of the table. Two shapes of table occur. For a matrix x : [N, D]
  the whole row is taken, so the result is [E, D] and entry (e, j) is x(n, j); for a vector v : [N] one cell is
  taken, so the result is [E] and entry e is v(n). In both, n is the start index word idx(e, 0) read as a signed
  integer and clamped into [0, N - 1]: a negative word reads row 0 and a word past the end reads the last row,
  as the gather clamps every start index so that the slice fits inside the operand.

  The operand index of a gather is, on each operand axis, the clamped start plus the batching coordinate plus the
  offset coordinate. There are no batching axes here, so the middle term is always 0. On the row axis (axis 0,
  named by the start index map and collapsed in the result) the offset coordinate is 0 and the start is the
  clamped word; the slice there has size one, so the clamp is to N - 1. On the column axis of a matrix (axis 1,
  an offset axis, not named by the start index map) the start is 0 and the offset coordinate is the result's
  own column j.
-/
import Idealize.ShloMosaic.Lib.ValueIdx

noncomputable section

namespace Cert.LibGatherEdge

open Idealize.ShloMosaic Idealize.ShloMosaic.ValueIdx

variable {α : Type}

/-! ## Whole rows of a matrix -/

/-- The dimension numbers of x[src] for a matrix x : [N, D] and start indices [E, 1], with result [E, D]: the
    result's axis 1 is the offset axis, the operand's axis 0 is collapsed and is the axis the start index names,
    the index vector lies along axis 1 of the start indices, and a slice is one whole row, [1, D]. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry (e, j) of the gathered rows is x(n, j), where n is the start index word idx(e, 0) read signed and clamped
    into [0, N - 1]. On axis 0 the operand coordinate is the clamped start alone (no batching, and a collapsed axis
    has offset 0); on axis 1 it is the offset coordinate alone, which is j (the start is 0 off the start index
    map). The start-indices index read for component 0 of start index e is (e, 0): e from the result's batch
    axis, 0 on the index vector's axis. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowsDims N D E wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    show (rowsDims N D E wf).start (ix2 e j) idx 0 + (rowsDims N D E wf).batchCoord (ix2 e j) 0
      + (rowsDims N D E wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e j) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N D E wf).start (ix2 e j) idx 1 + (rowsDims N D E wf).batchCoord (ix2 e j) 1
      + (rowsDims N D E wf).offCoord (ix2 e j) 1 = j.val
    have hstart : (rowsDims N D E wf).start (ix2 e j) idx 1 = 0 := by
      unfold GatherDims.start
      rw [dif_neg (show (1 : Fin 2) ∉ (rowsDims N D E wf).startIndexMap from
        fun h => Nat.one_ne_zero (congrArg Fin.val (List.mem_singleton.mp h)))]
    have hkept : (1 : Fin 2) ∈ (rowsDims N D E wf).sKept :=
      (GatherDims.mem_sKept _ _).mpr ⟨fun h => Nat.one_ne_zero (congrArg Fin.val (List.mem_singleton.mp h)), List.not_mem_nil⟩
    have hoff : (rowsDims N D E wf).offCoord (ix2 e j) 1 = j.val := by
      unfold GatherDims.offCoord
      rw [dif_pos hkept]
      rfl
    rw [hstart, GatherDims.batchCoord_eq_zero _ _ _ List.not_mem_nil, hoff, Nat.zero_add]

/-! ## Single cells of a vector -/

/-- The dimension numbers of v[src] for a vector v : [N] and start indices [E, 1], with result [E]: no offset
    axis, the operand's one axis is collapsed and is the axis the start index names, the index vector lies along
    axis 1 of the start indices, and a slice is one cell, [1]. -/
abbrev cellsDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry e of the gathered cells is v(n), where n is the start index word idx(e, 0) read signed and clamped into
    [0, N - 1]: on the operand's one axis the coordinate is the clamped start alone (no batching, and a collapsed
    axis has offset 0), and the start-indices index read for start index e is (e, 0). -/
theorem gather_cells_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (cellsDims N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (cellsDims N E wf).start (ix1 e) idx 0 + (cellsDims N E wf).batchCoord (ix1 e) 0
    + (cellsDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (cellsDims N E wf).startIndexMap from List.mem_singleton.mpr rfl)]
  have hsi : (cellsDims N E wf).siIdx (ix1 e) ⟨List.idxOf (0 : Fin 1) (cellsDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibGatherEdge

end
-- ==== Proof.GatherScale.lean ====
/-
  Scaling the rows of a table and then gathering rows along the edges is gathering first and scaling afterwards.

  A table x : [N, D] has row n multiplied by s(n), where s is a vector of length N, and then the rows named by a
  list of E edge endpoints are gathered: entry (e, j) of the result is x(n, j) · s(n), with n the endpoint of edge
  e (its start index word read signed and clamped into [0, N - 1]). Gathering x and s separately along the same
  endpoints gives x(n, j) and s(n) with the same n, because both gathers read the same word idx(e, 0) and clamp
  it to the same bound N - 1; repeating the gathered scale s(n) along the row e and multiplying entry by entry
  gives x(n, j) · s(n) again. So the two orders agree at every entry, for every table, scale and list of
  endpoints: no property of the numbers is used, only where each entry is read from.
-/
import proofs.«152339_j21388937134410_2_alg».proof.Proof.LibGatherEdge
import proofs.«152339_j21388937134410_2_alg».proof.Proof.Spec
import proofs.«152339_j21388937134410_2_alg».proof.Proof.LibColumn
import proofs.«152339_j21388937134410_2_alg».proof.Proof.LibVecColumn

noncomputable section

namespace Cert.GatherScale

open Idealize.ShloMosaic Idealize.ShloMosaic.ValueIdx Cert.LibGatherEdge

/-- A column [a, 1] broadcast to [a, b] with its two axes sent to the result's two axes reads, at (p, c), the
    column at (p, 0). A broadcast keeps the result's coordinate on an operand axis of extent other than one and
    puts 0 on an operand axis of extent one. The column's second axis has extent one, so its coordinate is 0; on
    the first axis the coordinate p is kept, and if a = 1 then p = 0 anyway. -/
theorem broadcastInDim_a1_ab_apply {α : Type} {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- Gathering the rows of the row-scaled table is the entrywise product of the gathered rows of the table and the
    gathered scales repeated along each row. Entry (e, j) of either side is x(n, j) · v(n), where n is the start
    index word idx(e, 0) read signed and clamped into [0, N - 1]. On the left the gather reads entry (n, j) of the
    scaled table, which is x(n, j) times the column of scales at (n, 0), and that column is v reshaped, so the
    factor is v(n). On the right the first factor is the gather of x at (e, j), which is x(n, j); the second is the
    gathered scales, a vector of length E, made a column [E, 1] and repeated along the rows to [E, D], which reads
    at (e, j) the gathered scale at e, and that is v(n) with the same n. -/
theorem gather_rowScale {φ : FTy} {N D E w : Nat} (hN : 0 < N)
    (wfr : GatherDims.WF ⟨2, ![N, D]⟩ ⟨2, ![E, 1]⟩ ⟨2, ![E, D]⟩ [1] [0] [] [0] [] 1 ![1, D])
    (wfc : GatherDims.WF ⟨1, ![N]⟩ ⟨2, ![E, 1]⟩ ⟨1, ![E]⟩ [] [0] [] [0] [] 1 ![1])
    (x : (⟨2, ![N, D]⟩ : Shape).Idx → EReal) (v : (⟨1, ![N]⟩ : Shape).Idx → EReal)
    (h₁ : (⟨1, ![N]⟩ : Shape).ShapeCasts ⟨2, ![N, 1]⟩)
    (hb₁ : (⟨1, ![E]⟩ : Shape).BroadcastsInDim ⟨2, ![E, 1]⟩ ![0])
    (hb₂ : (⟨2, ![E, 1]⟩ : Shape).BroadcastsInDim ⟨2, ![E, D]⟩ ![0, 1])
    (idx : IVec ⟨2, ![E, 1]⟩ w) :
    Host.gather (rowsDims N D E wfr) (Cert.Spec.rowScale x (shapeCast ⟨2, ![N, 1]⟩ v h₁)) idx
      = mulf (F := Ideal) (φ := φ) (Host.gather (rowsDims N D E wfr) x idx)
          (broadcastInDim ⟨2, ![E, D]⟩ ![0, 1] hb₂
            (broadcastInDim ⟨2, ![E, 1]⟩ ![0] hb₁ (Host.gather (cellsDims N E wfc) v idx))) := by
  funext i
  obtain ⟨e, j, rfl⟩ : ∃ (e : Fin E) (j : Fin D), i = ix2 e j := ⟨i 0, i 1, eq_ix2 i⟩
  rw [mulf_apply, gather_rows_apply hN wfr, gather_rows_apply hN wfr, Cert.Spec.rowScale_apply,
    Cert.LibColumn.shapeCast_a_a1_apply, broadcastInDim_a1_ab_apply, Cert.LibVecColumn.broadcastInDim_a_a1_apply,
    gather_cells_apply hN wfc]

end Cert.GatherScale

end
-- ==== Proof.AggBridge.lean ====
/-
  The aggregation step of the two programs is the same array.

  One program scales the rows of the node features first and gathers the scaled rows along the edges' sources:
  its messages are (h · s)[src]. The other gathers the rows of h and the entries of s separately along the same
  sources and multiplies them: its messages are h[src] · s[src]. Entry (e, j) of both is h(n, j) · s(n), with n the
  source of edge e read from the same index word and clamped to the same bound, so the two message arrays are
  equal. Both programs then add the messages into the rows of a zero array at the edges' destinations, by the
  same operation with the same dimension numbers at the same destination indices. An operation applied to equal
  operands gives equal results, so the two sums are equal; nothing about how the addition into the destinations is
  carried out is used.

  The widening of the first program's messages from the narrow to the wide float format is the identity on the
  extended reals, so it does not change them. The source indices are prepared in the same way in the two
  programs (a negative index counts from the end, and the vector becomes a column), and the scale s (the inverse
  square root of the degree, the degree taken at least one) is computed by the same operations; these are the
  same terms in the two programs' vocabularies, which differ only in the names of the shapes, of the dimension
  numbers and of the proofs of the side conditions.
-/
import proofs.«152339_j21388937134410_2_alg».proof.Proof.KVal
import proofs.«152339_j21388937134410_2_alg».proof.Proof.RVal
import proofs.«152339_j21388937134410_2_alg».proof.Proof.GatherScale
import proofs.«152339_j21388937134410_2_alg».proof.Proof.LibGatherEdge

noncomputable section

namespace Cert.AggBridge

open Idealize.ShloMosaic Idealize.ShloMosaic.ValueIdx Cert.LibGatherEdge

/-! ## The dimension numbers of the two programs, in one spelling

Each program names its own copy of the dimension numbers of a gather or a scatter. A copy is the same lists of
axes over the same shapes, with a proof of the same conditions, so the copies are equal; the gathers' are the
row gather and the cell gather along a column of E = 800000 start indices into N = 100000 rows. -/

/-- The first program's gather of 256-wide rows is the row gather with N = 100000, D = 256, E = 800000. -/
theorem gatherRows256_fst :
    Cert.KernelIdeal.gather_S100000x256_S800000x1_S800000x256_1_0_n_n_0_1_1256
      = rowsDims 100000 256 800000 (by decide) := rfl
/-- The first program's gather of 128-wide rows is the row gather with N = 100000, D = 128, E = 800000. -/
theorem gatherRows128_fst :
    Cert.KernelIdeal.gather_S100000x128_S800000x1_S800000x128_1_0_n_n_0_1_1128
      = rowsDims 100000 128 800000 (by decide) := rfl
/-- The second program's gather of 256-wide rows is the same row gather. -/
theorem gatherRows256_snd :
    Cert.ReferenceIdeal.gather_S100000x256_S800000x1_S800000x256_1_0_n_n_0_1_1256
      = rowsDims 100000 256 800000 (by decide) := rfl
/-- The second program's gather of 128-wide rows is the same row gather. -/
theorem gatherRows128_snd :
    Cert.ReferenceIdeal.gather_S100000x128_S800000x1_S800000x128_1_0_n_n_0_1_1128
      = rowsDims 100000 128 800000 (by decide) := rfl
/-- The second program's gather of the scale's entries is the cell gather with N = 100000, E = 800000. -/
theorem gatherCells_snd :
    Cert.ReferenceIdeal.gather_S100000_S800000x1_S800000_n_0_n_n_0_1_1 = cellsDims 100000 800000 (by decide) := rfl

/-- The two programs add 256-wide rows into the destinations with the same dimension numbers. -/
theorem scatter256_eq :
    Cert.KernelIdeal.scatter_S100000x256_S800000x1_S800000x256_1_0_0_1
      = Cert.ReferenceIdeal.scatter_S100000x256_S800000x1_S800000x256_1_0_0_1 := rfl
/-- The two programs add 128-wide rows into the destinations with the same dimension numbers. -/
theorem scatter128_eq :
    Cert.KernelIdeal.scatter_S100000x128_S800000x1_S800000x128_1_0_0_1
      = Cert.ReferenceIdeal.scatter_S100000x128_S800000x1_S800000x128_1_0_0_1 := rfl
/-- The two programs count the degrees (a one added at each endpoint's node) with the same dimension numbers. -/
theorem scatterDeg_eq :
    Cert.KernelIdeal.scatter_S100000_S800000x1_S800000_n_0_0_1
      = Cert.ReferenceIdeal.scatter_S100000_S800000x1_S800000_n_0_0_1 := rfl

/-! ## The prepared indices and the scale -/

/-- The edge endpoints are prepared in the same way in the two programs: where an index is negative 100000 is
    added to it, and the vector of indices becomes a column. The two terms are the same operations on the same
    shapes. -/
theorem wrap_eq (idx : IVec ⟨1, ![800000]⟩ 32) : Cert.KVal.wrap idx = Cert.RVal.wrap idx := rfl

/-- The scale is computed in the same way in the two programs: a one is added at each endpoint's node into a zero
    vector, the larger of that count and one is taken, and then its inverse square root. After the two copies of
    the count's dimension numbers are identified the two terms are the same operations on the same operands. -/
theorem invSqrtDeg_eq (idx : IVec ⟨1, ![800000]⟩ 32) : Cert.KVal.invSqrtDeg idx = Cert.RVal.invSqrtDeg idx := by
  unfold Cert.KVal.invSqrtDeg Cert.RVal.invSqrtDeg
  rw [scatterDeg_eq]

/-! ## The messages and their sums -/

/-- A widening of the float format is the identity on the extended reals: every entry is kept as it is. -/
theorem extf_id {s : Shape} {φ ψ : FTy} (a : FVec Ideal s φ) (h : φ.bits < ψ.bits) :
    (extf ψ a h : FVec Ideal s ψ) = a := funext fun i => extf_apply a h i

/-- The sums of the 256-wide messages agree. The first program's messages are the gathered rows of the row-scaled
    features, widened; the second's are the gathered rows of the features times the gathered scales repeated along
    each row. Entry (e, j) of both is h(n, j) · s(n) with n the clamped source of edge e, so the messages are equal,
    and both programs add them into a zero array at the same destinations by the same operation. -/
theorem agg256_eq (h : FVec Ideal ⟨2, ![100000, 256]⟩ .f32) (src dst : IVec ⟨1, ![800000]⟩ 32) :
    Cert.KVal.agg256 (Cert.Spec.rowScale h (Cert.KVal.column (Cert.KVal.invSqrtDeg src))) src dst
      = Cert.RVal.agg256 h src dst := by
  unfold Cert.KVal.agg256 Cert.RVal.agg256 Cert.RVal.msg256 Cert.KVal.column
  rw [scatter256_eq, gatherRows256_fst, gatherRows256_snd, gatherCells_snd, wrap_eq, invSqrtDeg_eq, extf_id]
  refine congrArg (Host.scatterAdd _ _ _) ?_
  exact Cert.GatherScale.gather_rowScale (φ := .f32) (by decide) _ _ h _ _ _ _ _

/-- The sums of the 128-wide messages agree, for the same reason. -/
theorem agg128_eq (h : FVec Ideal ⟨2, ![100000, 128]⟩ .f32) (src dst : IVec ⟨1, ![800000]⟩ 32) :
    Cert.KVal.agg128 (Cert.Spec.rowScale h (Cert.KVal.column (Cert.KVal.invSqrtDeg src))) src dst
      = Cert.RVal.agg128 h src dst := by
  unfold Cert.KVal.agg128 Cert.RVal.agg128 Cert.RVal.msg128 Cert.KVal.column
  rw [scatter128_eq, gatherRows128_fst, gatherRows128_snd, gatherCells_snd, wrap_eq, invSqrtDeg_eq, extf_id]
  refine congrArg (Host.scatterAdd _ _ _) ?_
  exact Cert.GatherScale.gather_rowScale (φ := .f32) (by decide) _ _ h _ _ _ _ _

end Cert.AggBridge

end
-- ==== Proof.Bridge.lean ====
/-
  The kernel's value and the reference's value are one function of the arguments.

  Layer by layer.  Write s for the source-side factor (a column over the nodes) and t for the destination-side one.
  The kernel keeps every layer's output already multiplied by s, row by row, because the next thing done to it is
  a gather of its rows at the edges' sources, and gathering the rows of h·s is gathering the rows of h and the
  entries of s and multiplying (the aggregation step).  What the kernel then computes from the aggregated array A —
  Σ_κ (A(p,κ)·t(p))·W(κ,q) + b(q), its positive part, times s(p) — is the reference's host layer of the same A
  followed by the row scaling the next gather needs.  No law of arithmetic beyond this regrouping is used, so the
  equality holds for all extended-real inputs.
-/
import proofs.«152339_j21388937134410_2_alg».proof.Proof.KVal
import proofs.«152339_j21388937134410_2_alg».proof.Proof.RVal
import proofs.«152339_j21388937134410_2_alg».proof.Proof.LinearHost
import proofs.«152339_j21388937134410_2_alg».proof.Proof.AggBridge

noncomputable section

namespace Cert.Bridge

open Idealize.ShloMosaic

/-- The printed products of the reference are the plain [N,K]×[K,D] product. -/
theorem dot1_eq : Cert.ReferenceIdeal.dot_S100000x256_S256x128_S100000x128_1_0_0_1_n_n = DotDims.plain 100000 256 128 := rfl
theorem dot2_eq : Cert.ReferenceIdeal.dot_S100000x128_S128x128_S100000x128_1_0_0_1_n_n = DotDims.plain 100000 128 128 := rfl
theorem dot3_eq : Cert.ReferenceIdeal.dot_S100000x128_S128x64_S100000x64_1_0_0_1_n_n = DotDims.plain 100000 128 64 := rfl

variable (x : FVec Ideal ⟨2, ![100000, 256]⟩ .f32) (W1 : FVec Ideal ⟨2, ![256, 128]⟩ .f32) (b1 : FVec Ideal ⟨1, ![128]⟩ .f32)
  (W2 : FVec Ideal ⟨2, ![128, 128]⟩ .f32) (b2 : FVec Ideal ⟨1, ![128]⟩ .f32)
  (W3 : FVec Ideal ⟨2, ![128, 64]⟩ .f32) (b3 : FVec Ideal ⟨1, ![64]⟩ .f32) (src dst : IVec ⟨1, ![800000]⟩ 32)

/-- The kernel's positive part is the reference's. -/
theorem relu_eq (h : FVec Ideal ⟨2, ![100000, 128]⟩ .f32) : Cert.Spec.relu h = Cert.RVal.relu128 h :=
  Cert.LinearHost.relu_eq_host h _

/-- First layer: the kernel's layer function of what it aggregated from x·s is the reference's first layer of x. -/
theorem lin1_eq :
    Cert.Spec.linear (Cert.KVal.agg256 (Cert.KVal.h0 x src) src dst) (Cert.KVal.column (Cert.KVal.invSqrtDeg dst)) W1
        (shapeCast Cert.KernelIdeal.S1x128 b1 Cert.KernelIdeal.Facts₀.shapeCasts_S128_S1x128)
      = Cert.RVal.lin1 x W1 b1 src dst := by
  unfold Cert.KVal.h0
  rw [Cert.AggBridge.agg256_eq, Cert.AggBridge.invSqrtDeg_eq]
  unfold Cert.KVal.column Cert.RVal.lin1 Cert.RVal.scaled256
  rw [dot1_eq]
  exact Cert.LinearHost.linear_eq_host none _ _ _ _ _ _ _ _ _ _

/-- A later 128-wide layer, from any previous output h kept scaled by s. -/
theorem lin2_eq (h : FVec Ideal ⟨2, ![100000, 128]⟩ .f32) :
    Cert.Spec.linear (Cert.KVal.agg128 (Cert.Spec.rowScale h (Cert.KVal.column (Cert.KVal.invSqrtDeg src))) src dst)
        (Cert.KVal.column (Cert.KVal.invSqrtDeg dst)) W2
        (shapeCast Cert.KernelIdeal.S1x128 b2 Cert.KernelIdeal.Facts₀.shapeCasts_S128_S1x128)
      = Cert.RVal.lin2 h W2 b2 src dst := by
  rw [Cert.AggBridge.agg128_eq, Cert.AggBridge.invSqrtDeg_eq]
  unfold Cert.KVal.column Cert.RVal.lin2 Cert.RVal.scaled128
  rw [dot2_eq]
  exact Cert.LinearHost.linear_eq_host none _ _ _ _ _ _ _ _ _ _

/-- The last layer, 128 → 64. -/
theorem lin3_eq (h : FVec Ideal ⟨2, ![100000, 128]⟩ .f32) :
    Cert.Spec.linear (Cert.KVal.agg128 (Cert.Spec.rowScale h (Cert.KVal.column (Cert.KVal.invSqrtDeg src))) src dst)
        (Cert.KVal.column (Cert.KVal.invSqrtDeg dst)) W3
        (shapeCast Cert.KernelIdeal.S1x64 b3 Cert.KernelIdeal.Facts₀.shapeCasts_S64_S1x64)
      = Cert.RVal.lin3 h W3 b3 src dst := by
  rw [Cert.AggBridge.agg128_eq, Cert.AggBridge.invSqrtDeg_eq]
  unfold Cert.KVal.column Cert.RVal.lin3 Cert.RVal.scaled128
  rw [dot3_eq]
  exact Cert.LinearHost.linear_eq_host none _ _ _ _ _ _ _ _ _ _

/-- The three layers: the kernel's result is the reference's. -/
theorem h3_eq :
    Cert.KVal.h3 x W1 b1 W2 b2 W3 b3 src dst = Cert.RVal.r3 x W1 b1 W2 b2 W3 b3 src dst := by
  unfold Cert.KVal.h3 Cert.KVal.h2 Cert.KVal.h1 Cert.RVal.r3
  rw [lin1_eq, relu_eq, lin2_eq, relu_eq, lin3_eq]

end Cert.Bridge

end
-- ==== Proof.lean ====
/-
  A three-layer graph convolution on a TPU, against its jnp reference, over the extended reals.

  Both programs first compute, on the host, the inverse square roots s and t of the nodes' out- and in-degrees
  (counted over the edge list, taken at least one).  A layer of the reference is then
      h' = relu?( ( Σ_{edges e into p} h[src e] · s[src e] ) · t(p) · W + b ).
  The kernel program splits the same work between four pipelined kernel calls and host gathers and scatter-adds
  between them: call 0 forms x·s row by row; each later call reads the rows the host aggregated into the
  destinations, scales row p by t(p), multiplies by W, adds b and — but for the last — takes the positive part
  and multiplies row p by s(p) again, ready for the next gather.  Since gathering the rows of h·s is gathering
  the rows of h and the entries of s and multiplying, every intermediate array of the kernel program is the
  reference's array of the same layer times s row by row, and the final arrays are equal.  The only arithmetic
  used is this regrouping of one product, which holds for all extended reals; the precondition (finite inputs)
  is not needed.

  The pieces: Spec (the layer functions, entry by entry), Region0–3 (what each kernel call leaves in its output
  array, block by block over the 25 grid points), KernelRun (the kernel program's run with its result named),
  Fold (the result walked back through the program's segments to the arguments), RVal (the reference's result as
  layers of host operations), LinearHost and AggBridge (a layer as the reference spells it; the aggregation
  step), Bridge (the three layers joined).  The frames of the two kernel programs are the generated ones; the
  reference's frame is its generated run with the result forgotten; the ideal pass rewrote nothing, so there is
  nothing to preserve.
-/
import proofs.«152339_j21388937134410_2_alg».proof.Defs
import proofs.«152339_j21388937134410_2_alg».proof.Proof.Gen.Kernel
import proofs.«152339_j21388937134410_2_alg».proof.Proof.Gen.Kernel.Frame
import proofs.«152339_j21388937134410_2_alg».proof.Proof.Gen.KernelIdeal
import proofs.«152339_j21388937134410_2_alg».proof.Proof.Gen.KernelIdeal.Frame
import proofs.«152339_j21388937134410_2_alg».proof.Proof.Gen.ReferenceIdeal
import proofs.«152339_j21388937134410_2_alg».proof.Proof.Gen.ReferenceIdeal.Run
import proofs.«152339_j21388937134410_2_alg».proof.Proof.Gen.Pre_finite_inputs
import proofs.«152339_j21388937134410_2_alg».proof.Proof.KernelRun
import proofs.«152339_j21388937134410_2_alg».proof.Proof.Region0
import proofs.«152339_j21388937134410_2_alg».proof.Proof.Region1
import proofs.«152339_j21388937134410_2_alg».proof.Proof.Region2
import proofs.«152339_j21388937134410_2_alg».proof.Proof.Region3
import proofs.«152339_j21388937134410_2_alg».proof.Proof.Fold
import proofs.«152339_j21388937134410_2_alg».proof.Proof.RVal
import proofs.«152339_j21388937134410_2_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs to the end without a fault and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is host operations only: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the same result array: the kernel
    program's result is the three kernel-side layers of its arguments (the run, then the walk back through the
    segments), the reference's is the three host-side layers of its arguments, and the two are one function. -/
theorem algebraic : Cert.algebraic_KernelIdeal_ReferenceIdeal := by
  intro m ρ m' ρ' _ hagree
  refine ⟨fun c => Cert.KVal.h3 (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact (θ_run Cert.KernelIdeal.defs _ _).mono
      (fun r h c => ⟨(h c).1.trans
        (Cert.KFold.result_eq Cert.KCover.final0 Cert.KCover.final1 Cert.KCover.final2 Cert.KCover.final3 m ρ c), (h c).2⟩)
      (Cert.KRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.RVal.res_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.Bridge.h3_eq _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
